-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x10000x10000 : S_.BroadcastsInDim S2x10000x10000 (![] : Fin 0 → Fin S2x10000x10000.rank)
  reducesTo_S2x10000x10000_S_d0_1_2 : S2x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S2x10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x10000x10000 .f32 := Host.absf main_arg1
  let main_cst_0 : FVec F S_ .f32 := constant S_ .f32 0x7F800000#32
  let main_v5 : FVec F S2x10000x10000 .f32 := broadcastInDim S2x10000x10000 ![] bcast_S_S2x10000x10000 main_cst_0
  let main_v6 : IVec S2x10000x10000 1 := cmpf .olt main_v4 main_v5
  let main_c_1 : IVec S_ 1 := constantI S_ 1 1#1
  let main_v7 : IVec S_ 1 := (fun x v => Host.reduce IntOp.andi x v reducesTo_S2x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S1x400x10000 : Shape := ⟨3, ![1, 400, 10000]⟩
abbrev S400x64 : Shape := ⟨2, ![400, 64]⟩
abbrev S400x10000 : Shape := ⟨2, ![400, 10000]⟩
abbrev S400x128 : Shape := ⟨2, ![400, 128]⟩

abbrev nBuf : Space → Nat
  | .hbm => 9
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x64, .f32⟩
  | .local _ .vmem, ⟨0, _⟩ => ⟨S1x400x10000, .f32⟩
  | .local _ .vmem, ⟨1, _⟩ => ⟨S1x400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S400x64, .f32⟩
  | .local _ .vmem, ⟨8, _⟩ => ⟨S400x64, .f32⟩
  | .local _ .vmem, ⟨9, _⟩ => ⟨S10000x128, .bf16⟩
  | .local _ .vmem, ⟨10, _⟩ => ⟨S10000x64, .bf16⟩
  | .local _ .vmem, ⟨11, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v26 : BitVec 32 := Scalar.muli arg1 c400_i32
  let v27 : Index := Scalar.indexCast v26
  let c0_14 : Index := 0#32
  ![v27.toNat, 0]
def k0_cond4 (i : grid0.Coords) : BitVec 1 :=
  let arg0 : BitVec 32 := BitVec.ofNat 32 (i 0).val
  let c1_i32 : BitVec 32 := 1#32
  let v13 : BitVec 1 := Scalar.cmpi .eq arg0 c1_i32
  let v14 : BitVec 32 := Scalar.extui v13
  let c0_i32_6 : BitVec 32 := 0#32
  let v15 : BitVec 1 := Scalar.cmpi .ne v14 c0_i32_6
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S1x400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  hrank0 : 0 < grid0.rank
  k0_off1_inb : ∀ i : grid0.Coords, ∀ (k0_h2 : k0_cond2 i = 1#1), ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x10000.size a ≤ S2x10000x10000.size a
  hwx0_0 : ∀ i : grid0.Coords, EltTy.bits .f32 = 32 ∨ (Rect.block (s := S2x10000x10000) S1x400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x64.size a ≤ S10000x64.size a
  hwx0_6 : ∀ i : grid0.Coords, EltTy.bits .f32 = 32 ∨ (Rect.block (s := S10000x64) S400x64.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg1) S1x400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond4 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S2x10000x10000 : Shape := ⟨3, ![2, 10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x10000x10000 : Shape := ⟨3, ![1, 10000, 10000]⟩
abbrev S10000x10000 : Shape := ⟨2, ![10000, 10000]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x10000x10000, .f32⟩
  | .hbm, ⟨7, _⟩ => ⟨S10000x10000, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S1x10000x10000, .f32⟩
  | .hbm, ⟨17, _⟩ => ⟨S10000x10000, .f32⟩
  | .hbm, ⟨18, _⟩ => ⟨S10000x64, .f32⟩
  | .hbm, ⟨19, _⟩ => ⟨S10000x64, .f32⟩
  | .hbm, ⟨20, _⟩ => ⟨S1x64, .f32⟩
  | .hbm, ⟨21, _⟩ => ⟨S10000x64, .f32⟩
  | .hbm, ⟨22, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S2x10000x10000_S1x10000x10000_0_0_0 : S2x10000x10000.Slices ![0, 0, 0] S1x10000x10000
  shapeCasts_S1x10000x10000_S10000x10000 : S1x10000x10000.ShapeCasts S10000x10000
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S2x10000x10000_S1x10000x10000_1_0_0 : S2x10000x10000.Slices ![1, 0, 0] S1x10000x10000
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.K.Cases.lean ====
/-
  The control of the fused kernel over its grid of 2 × 25 points (layer, row band).  The body has four
  conditionals on the grid coordinates: the first point (0,0) computes x·W1 into the first scratch; every layer-0
  point computes one 400-row band of max(adj0·(x·W1) + b1, 0) into the third scratch; the last layer-0 point (0,24)
  multiplies the completed third scratch by W2 into the second scratch; every layer-1 point computes one band of
  adj1·(h·W2) + b2 into the output block.  Here: the four conditions in closed form over the linear point number
  t = 25·layer + band, where the output window is idle and where it is written back, the memrefs the pipeline
  calls the body with, and the region invariant's scratch part as three owned memrefs.
-/
import proofs.«181885_g74002286510483_cont_9to1_m_578_17_alg».proof.Proof.Gen.Kernel.Launch
import proofs.«181885_g74002286510483_cont_9to1_m_578_17_alg».proof.Proof.Gen.Kernel.Skeleton
import proofs.«181885_g74002286510483_cont_9to1_m_578_17_alg».proof.Proof.Gen.Kernel.Points
import proofs.«181885_g74002286510483_cont_9to1_m_578_17_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The four conditions -/

/-- The first conditional: layer 0 and band 0. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second: layer 0. -/
abbrev cond2 (i : grid0.Coords) : Prop := k0_cond2 i = 1#1
/-- The third: layer 0 and band 24, the last. -/
abbrev cond3 (i : grid0.Coords) : Prop :=
  (Scalar.cmpi .ne (Scalar.extui (Scalar.andi (Scalar.cmpi .eq (BitVec.ofNat 32 (i 0).val) 0#32) (Scalar.cmpi .eq (BitVec.ofNat 32 (i 1).val) 24#32))) 0#32) = 1#1
/-- The fourth: layer 1. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ t.val = 24 :=
  (by decide +kernel : ∀ t : Fin grid0.N, cond3 (grid0.coords t) ↔ t.val = 24)
theorem hcond4 : ∀ t : Fin cfg0.N, cond4 (grid0.coords t) ↔ 25 ≤ t.val :=
  (by decide +kernel : ∀ t : Fin grid0.N, cond4 (grid0.coords t) ↔ 25 ≤ t.val)

/-- The row offset of the band the layer-0 body stores: 400 · band. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the output is written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- In layer 0 the body stores nothing into the output block: the window is idle there, -/
theorem idleAt6 : ∀ t : Fin cfg0.N, t.val < 25 → cfg0.idle 6 (grid0.coords t) = true := by decide +kernel
/-- and the pipeline does not write the block back (its index stays 0 until the second point of layer 1). -/
theorem noFlush6 : ∀ t : Fin cfg0.N, t.val < 25 → (cfg0.win 6).flush t = false := by decide +kernel
/-- In layer 1 the body stores the whole block: the window is live, -/
theorem liveAt6 : ∀ t : Fin cfg0.N, 25 ≤ t.val → cfg0.idle 6 (grid0.coords t) = false := by decide +kernel
/-- and the block is written back after every point. -/
theorem flush6 : ∀ t : Fin cfg0.N, 25 ≤ t.val → (cfg0.win 6).flush t = true := by decide +kernel
/-- The output block's index at a layer-1 point is the band. -/
theorem index6 : ∀ t : Fin cfg0.N, 25 ≤ t.val → (cfg0.win 6).index t = ![t.val - 25, 0] := by decide +kernel

/-! ## The memrefs the pipeline calls the body with -/

abbrev ms0 (t : Fin cfg0.N) : Memref sig .tc .vmem S1x400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x64 .f32 := win0_6.stage (cfg0.slots t 6)
abbrev hs6 (t : Fin cfg0.N) : (ms6 t).IsWhole := hstage0_6 ((cfg0.slots t 6).cast nbuf0_6)
/-- The three scratch operands: x·W1 (bf16), h·W2 (bf16), h (f32). -/
abbrev scA : Memref sig .tc .vmem S10000x128 .bf16 := Memref.whole cc0_scratch0
abbrev scB : Memref sig .tc .vmem S10000x64 .bf16 := Memref.whole cc0_scratch1
abbrev scH : Memref sig .tc .vmem S10000x128 .f32 := Memref.whole cc0_scratch2

/-- The class invariant with the scratch operands as memrefs owned at some contents. -/
theorem PhiA_eq (c : Dev nD) :
    (Pipeline.ΦA spec0 c : sProp 𝕄)
      = iprop(iprop((∃ d, owns (c : Thread nD τ) scA fullShare d) ∗ (∃ d, owns (c : Thread nD τ) scB fullShare d) ∗ (∃ d, owns (c : Thread nD τ) scH fullShare d)) ∗ (∃ r, prngReg c r)) := by
  unfold Pipeline.ΦA; rw [scopedRest0_eq]; simp only [scA, scB, scH, owns_whole]; try rfl

end Cert.Kernel.Body

end
-- ==== Proof.LibUnitZero.lean ====
/-
  Two readings through a whole buffer's own view, at any value type.

  A memref that is a whole buffer, held at the contents that read as X, loaded through the unit-stride rectangle at
  zero offsets of the buffer's own sizes, reads X; and one store through that rectangle, read back through the view,
  is the stored payload, whatever the buffer held before.
-/
import Idealize.ShloMosaic.Lib.Pipeline.FrameBody
import Idealize.ShloMosaic.Lib.Pipeline.Frame
import Idealize.ShloMosaic.Lib.Pipeline.Value

noncomputable section

namespace Idealize.ShloMosaic

open Idealize.SL Idealize.SL.Sem

/-- The rank-2 zero offsets, spelt as a literal vector, are the constant zero function. -/
theorem zeroOff2 : (![0, 0] : Fin 2 → ℕ) = fun _ => 0 := by funext a; fin_cases a <;> rfl
/-- The rank-3 zero offsets likewise. -/
theorem zeroOff3 : (![0, 0, 0] : Fin 3 → ℕ) = fun _ => 0 := by funext a; fin_cases a <;> rfl

namespace View

variable {Val : EltTy → Type} {S : Shape} {e : EltTy} {sig : RefSig} {κ : Kind} {sp : Space}

/-- One store through the whole-shape rectangle at zero offsets, read back through the view: the payload. -/
theorem read_writes_unit_zero [∀ e, Nonempty (Val e)] (v : View sig κ sp S e) (f : v.ty.Contents Val)
    {off : Fin S.rank → Nat} (h : off = fun _ => 0) (inb : ∀ a, off a + S.size a ≤ S.size a) (w : S.Idx → Val e) :
    v.read Val (v.writes Val f [(⟨Rect.unit off S.size inb, w⟩ : Piece Val S e)]) = w := by
  rw [View.read_writes_eq_canon v f _ (fun y => ⟨_, List.mem_singleton_self _, View.mem_set_unit_zero h inb y⟩),
    View.canon_unit_zero h inb]

end View

namespace Memref.IsWhole

variable {Val : EltTy → Type} {S : Shape} {e : EltTy} {sig : RefSig} {κ : Kind} {sp : Space}

/-- A whole memref held at the contents that read as `X`, loaded through the whole-shape rectangle at zero offsets, reads `X`. -/
theorem readAt_unread_unit_zero {m : Memref sig κ sp S e} (hm : m.IsWhole) {off : Fin S.rank → Nat} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Memref.IsWhole

end Idealize.ShloMosaic

end
-- ==== Proof.K.Runs.lean ====
/-
  The kernel body run once in each of its four control cases, on any whole staging and scratch memrefs.

  Case A (the first point): x·W1 is stored whole into the first scratch, read back, and band 0 of
  max(adj0·(x·W1) + b1, 0) is stored into rows 0..399 of the third scratch.  Case B (a later layer-0 point but the
  last): only the band store, the first scratch read as it was left.  Case C (the last layer-0 point): the band store,
  then the third scratch read WHOLE and its product with W2 stored whole into the second scratch.  Case D (a
  layer-1 point): the output block stored whole from the adjacency block, the second scratch and b2.
  Each statement names every buffer the case touches: what it holds before, what it holds after.
-/
import proofs.«181885_g74002286510483_cont_9to1_m_578_17_alg».proof.Proof.K.Cases
import proofs.«181885_g74002286510483_cont_9to1_m_578_17_alg».proof.Proof.LibUnitZero

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The third scratch after one band store over contents `s`: rows `k0_off1 i` .. +399 hold the band `w`, the others `s`. -/
def storeBand (i : grid0.Coords) (hc2 : cond2 i) (arg11 : Memref sig .tc .vmem S10000x128 .f32) (harg11 : arg11.IsWhole)
    (s : Vec F S10000x128 .f32) (w : Vec F S400x128 .f32) : Vec F S10000x128 .f32 :=
  arg11.view.read (Elt F) (arg11.view.writes (Elt F) (harg11.unread s)
    [⟨Rect.unit (s := S10000x128) (k0_off1 i) S400x128.size (k0_off1_inb i hc2), w⟩])

set_option maxHeartbeats 2000000 in
theorem runA (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (arg11 : Memref sig .tc .vmem S10000x128 .f32) (harg11 : arg11.IsWhole) (hc1 : cond1 i) (hc2 : cond2 i) (hc3 : ¬cond3 i) (hc4 : ¬cond4 i)
    (x2 : Vec F S1x400x10000 .f32) (x3 : Vec F S10000x128 .f32) (x4 : Vec F S128x128 .f32) (x5 : Vec F S1x128 .f32) (s9 : Vec F S10000x128 .bf16) (s11 : Vec F S10000x128 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare s9 ∗ owns (c : Thread nD τ) arg11 fullShare s11
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare (k0_pay1 x3 x4) ∗ owns (c : Thread nD τ) arg11 fullShare (storeBand i hc2 arg11 harg11 s11 (k0_pay2 x2 (k0_pay1 x3 x4) x5))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f3, %hf3, H3⟩, ⟨%f4, %hf4, H4⟩, ⟨%f5, %hf5, H5⟩, ⟨%f9, %hf9, H9⟩, ⟨%f11, %hf11, H11⟩, Hk⟩
  obtain rfl := harg2.eq_unread hf2; obtain rfl := harg3.eq_unread hf3; obtain rfl := harg4.eq_unread hf4; obtain rfl := harg5.eq_unread hf5; obtain rfl := harg9.eq_unread hf9; obtain rfl := harg11.eq_unread hf11
  sl_exec (disch := first | exact hc1 | exact hc2 | exact hc3 | exact hc4)
  sl_step
  sl_unfold_words
  simp only [Memref.IsWhole.readAt_unread_unit_zero (S := S1x400x10000) _ zeroOff3, Memref.IsWhole.readAt_unread_unit_zero (S := S10000x128) _ zeroOff2, Memref.IsWhole.readAt_unread_unit_zero (S := S128x128) _ zeroOff2, Memref.IsWhole.readAt_unread_unit_zero (S := S1x128) _ zeroOff2, Memref.IsWhole.readAt_unread_unit_zero (S := S128x64) _ zeroOff2, Memref.IsWhole.readAt_unread_unit_zero (S := S1x64) _ zeroOff2, Memref.IsWhole.readAt_unread_unit_zero (S := S10000x64) _ zeroOff2, Memref.IsWhole.readAt_unread_unit_zero (S := S400x64) _ zeroOff2, View.readCov_unit_zero (S := S10000x128) _ zeroOff2]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H9]
  · iexists _; isplitr
    swap; · iexact H9
    ipureintro; exact View.read_writes_unit_zero _ _ zeroOff2 _ _
  iexists _; isplitr
  swap; · iexact H11
  ipureintro; rfl

set_option maxHeartbeats 2000000 in
theorem runB (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (arg11 : Memref sig .tc .vmem S10000x128 .f32) (harg11 : arg11.IsWhole) (hc1 : ¬cond1 i) (hc2 : cond2 i) (hc3 : ¬cond3 i) (hc4 : ¬cond4 i)
    (x2 : Vec F S1x400x10000 .f32) (x5 : Vec F S1x128 .f32) (s9 : Vec F S10000x128 .bf16) (s11 : Vec F S10000x128 .f32)
    (E : Set ℕ) (K : PUnit → sProp 𝕄) :
    iprop(owns (c : Thread nD τ) arg2 fullShare x2 ∗ owns (c : Thread nD τ) arg5 fullShare x5 ∗ owns (c : Thread nD τ) arg9 fullShare s9 ∗ owns (c : Thread nD τ) arg11 fullShare s11
        ∗ (iprop(owns (c : Thread nD τ) arg2 fullShare x2 ∗ owns (c : Thread nD τ) arg5 fullShare x5 ∗ owns (c : Thread nD τ) arg9 fullShare s9 ∗ owns (c : Thread nD τ) arg11 fullShare (storeBand i hc2 arg11 harg11 s11 (k0_pay2 x2 s9 x5))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f5, %hf5, H5⟩, ⟨%f9, %hf9, H9⟩, ⟨%f11, %hf11, H11⟩, Hk⟩
  obtain rfl := harg2.eq_unread hf2; obtain rfl := harg5.eq_unread hf5; obtain rfl := harg9.eq_unread hf9; obtain rfl := harg11.eq_unread hf11
  sl_exec (disch := first | exact hc1 | exact hc2 | exact hc3 | exact hc4)
  sl_step
  sl_unfold_words
  simp only [Memref.IsWhole.readAt_unread_unit_zero (S := S1x400x10000) _ zeroOff3, Memref.IsWhole.readAt_unread_unit_zero (S := S10000x128) _ zeroOff2, Memref.IsWhole.readAt_unread_unit_zero (S := S128x128) _ zeroOff2, Memref.IsWhole.readAt_unread_unit_zero (S := S1x128) _ zeroOff2, Memref.IsWhole.readAt_unread_unit_zero (S := S128x64) _ zeroOff2, Memref.IsWhole.readAt_unread_unit_zero (S := S1x64) _ zeroOff2, Memref.IsWhole.readAt_unread_unit_zero (S := S10000x64) _ zeroOff2, Memref.IsWhole.readAt_unread_unit_zero (S := S400x64) _ zeroOff2, View.readCov_unit_zero (S := S10000x128) _ zeroOff2]
  iapply Hk
  isplitl [H2]
  · iexists _; isplitr; · ipureintro; exact harg2.read_unread _
    iexact H2
  isplitl [H5]
  · iexists _; isplitr; · ipureintro; exact harg5.read_unread _
    iexact H5
  isplitl [H9]
  · iexists _; isplitr; · ipureintro; exact harg9.read_unread _
    iexact H9
  iexists _; isplitr
  swap; · iexact H11
  ipureintro; rfl

set_option maxHeartbeats 2000000 in
theorem runC (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (arg11 : Memref sig .tc .vmem S10000x128 .f32) (harg11 : arg11.IsWhole) (hc1 : ¬cond1 i) (hc2 : cond2 i) (hc3 : cond3 i) (hc4 : ¬cond4 i)
    (x2 : Vec F S1x400x10000 .f32) (x5 : Vec F S1x128 .f32) (x6 : Vec F S128x64 .f32) (s9 : Vec F S10000x128 .bf16) (s10 : Vec F S10000x64 .bf16) (s11 : Vec F S10000x128 .f32)
    (E : Set ℕ) (K : PUnit → sProp 𝕄) :
    iprop(owns (c : Thread nD τ) arg2 fullShare x2 ∗ owns (c : Thread nD τ) arg5 fullShare x5 ∗ owns (c : Thread nD τ) arg6 fullShare x6 ∗ owns (c : Thread nD τ) arg9 fullShare s9 ∗ owns (c : Thread nD τ) arg10 fullShare s10 ∗ owns (c : Thread nD τ) arg11 fullShare s11
        ∗ (iprop(owns (c : Thread nD τ) arg2 fullShare x2 ∗ owns (c : Thread nD τ) arg5 fullShare x5 ∗ owns (c : Thread nD τ) arg6 fullShare x6 ∗ owns (c : Thread nD τ) arg9 fullShare s9 ∗ owns (c : Thread nD τ) arg10 fullShare (k0_pay3 (storeBand i hc2 arg11 harg11 s11 (k0_pay2 x2 s9 x5)) x6) ∗ owns (c : Thread nD τ) arg11 fullShare (storeBand i hc2 arg11 harg11 s11 (k0_pay2 x2 s9 x5))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f5, %hf5, H5⟩, ⟨%f6, %hf6, H6⟩, ⟨%f9, %hf9, H9⟩, ⟨%f10, %hf10, H10⟩, ⟨%f11, %hf11, H11⟩, Hk⟩
  obtain rfl := harg2.eq_unread hf2; obtain rfl := harg5.eq_unread hf5; obtain rfl := harg6.eq_unread hf6; obtain rfl := harg9.eq_unread hf9; obtain rfl := harg10.eq_unread hf10; obtain rfl := harg11.eq_unread hf11
  sl_exec (disch := first | exact hc1 | exact hc2 | exact hc3 | exact hc4)
  sl_step
  sl_unfold_words
  simp only [Memref.IsWhole.readAt_unread_unit_zero (S := S1x400x10000) _ zeroOff3, Memref.IsWhole.readAt_unread_unit_zero (S := S10000x128) _ zeroOff2, Memref.IsWhole.readAt_unread_unit_zero (S := S128x128) _ zeroOff2, Memref.IsWhole.readAt_unread_unit_zero (S := S1x128) _ zeroOff2, Memref.IsWhole.readAt_unread_unit_zero (S := S128x64) _ zeroOff2, Memref.IsWhole.readAt_unread_unit_zero (S := S1x64) _ zeroOff2, Memref.IsWhole.readAt_unread_unit_zero (S := S10000x64) _ zeroOff2, Memref.IsWhole.readAt_unread_unit_zero (S := S400x64) _ zeroOff2, View.readCov_unit_zero (S := S10000x128) _ zeroOff2]
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H9]
  · iexists _; isplitr; · ipureintro; exact harg9.read_unread _
    iexact H9
  isplitl [H10]
  · iexists _; isplitr
    swap; · iexact H10
    ipureintro
    refine (View.read_writes_unit_zero _ _ zeroOff2 _ _).trans ?_
    rw [View.readAt_eq_ld, View.ld_unit_zero zeroOff2]
    rfl
  iexists _; isplitr
  swap; · iexact H11
  ipureintro; rfl

set_option maxHeartbeats 2000000 in
theorem runD (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (arg11 : Memref sig .tc .vmem S10000x128 .f32) (harg11 : arg11.IsWhole) (hc1 : ¬cond1 i) (hc2 : ¬cond2 i) (hc3 : ¬cond3 i) (hc4 : cond4 i)
    (x2 : Vec F S1x400x10000 .f32) (x7 : Vec F S1x64 .f32) (s10 : Vec F S10000x64 .bf16) (d8 : Vec F S400x64 .f32)
    (E : Set ℕ) (K : PUnit → sProp 𝕄) :
    iprop(owns (c : Thread nD τ) arg2 fullShare x2 ∗ owns (c : Thread nD τ) arg7 fullShare x7 ∗ owns (c : Thread nD τ) arg10 fullShare s10 ∗ owns (c : Thread nD τ) arg8 fullShare d8
        ∗ (iprop(owns (c : Thread nD τ) arg2 fullShare x2 ∗ owns (c : Thread nD τ) arg7 fullShare x7 ∗ owns (c : Thread nD τ) arg10 fullShare s10 ∗ owns (c : Thread nD τ) arg8 fullShare (k0_pay4 x2 s10 x7)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f7, %hf7, H7⟩, ⟨%f10, %hf10, H10⟩, ⟨%f8, %hf8, H8⟩, Hk⟩
  obtain rfl := harg2.eq_unread hf2; obtain rfl := harg7.eq_unread hf7; obtain rfl := harg10.eq_unread hf10; obtain rfl := harg8.eq_unread hf8
  sl_exec (disch := first | exact hc1 | exact hc2 | exact hc3 | exact hc4)
  sl_step
  sl_unfold_words
  simp only [Memref.IsWhole.readAt_unread_unit_zero (S := S1x400x10000) _ zeroOff3, Memref.IsWhole.readAt_unread_unit_zero (S := S10000x128) _ zeroOff2, Memref.IsWhole.readAt_unread_unit_zero (S := S128x128) _ zeroOff2, Memref.IsWhole.readAt_unread_unit_zero (S := S1x128) _ zeroOff2, Memref.IsWhole.readAt_unread_unit_zero (S := S128x64) _ zeroOff2, Memref.IsWhole.readAt_unread_unit_zero (S := S1x64) _ zeroOff2, Memref.IsWhole.readAt_unread_unit_zero (S := S10000x64) _ zeroOff2, Memref.IsWhole.readAt_unread_unit_zero (S := S400x64) _ zeroOff2, View.readCov_unit_zero (S := S10000x128) _ zeroOff2]
  iapply Hk
  isplitl [H2]
  · iexists _; isplitr; · ipureintro; exact harg2.read_unread _
    iexact H2
  isplitl [H7]
  · iexists _; isplitr; · ipureintro; exact harg7.read_unread _
    iexact H7
  isplitl [H10]
  · iexists _; isplitr; · ipureintro; exact harg10.read_unread _
    iexact H10
  iexists _; isplitr
  swap; · iexact H8
  ipureintro; exact View.read_writes_unit_zero _ _ zeroOff2 _ _

end Cert.Kernel.Body

end
-- ==== Proof.K.Data.lean ====
/-
  What the fused kernel holds, point by point.

  Y1 is x·W1 (rounded to the scratch's format, the identity on exact reals), stored by the first point.  Band k of
  H = max(adj0·Y1 + b1, 0), 400 rows, is stored by layer-0 point k into rows 400k..400k+399 of the third scratch;
  `Hval` is the whole of H, row r taken from band r / 400 at row r % 400.  Y2 is H·W2, stored by the last layer-0
  point once all 25 bands are in place.  The output block of layer-1 point t is adj1's band times Y2 plus b2.
  The region invariant tracks exactly this: before point n (1 ≤ n ≤ 24) the first scratch holds Y1 and the rows
  below 400·n of the third scratch hold H; from point 25 on the second scratch holds Y2.
-/
import proofs.«181885_g74002286510483_cont_9to1_m_578_17_alg».proof.Proof.K.Runs
import Idealize.ShloMosaic.Lib.ValueIdx
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- Point number `n` of the 50. -/
def pt (n : ℕ) (h : n < 50) : Fin cfg0.N := ⟨n, lt_of_lt_of_eq h N50.symm⟩
/-- The first point, and the last point of layer 0. -/
abbrev tA : Fin cfg0.N := pt 0 (by decide)
abbrev tC : Fin cfg0.N := pt 24 (by decide)

/-- x·W1, as the first point stores it. -/
def Y1 (c : Dev nD) : Vec F S10000x128 .bf16 := k0_pay1 (iblk m c 1 tA) (iblk m c 2 tA)
/-- Band `t` of max(adj0·Y1 + b1, 0): what layer-0 point `t` stores. -/
def Hband (c : Dev nD) (t : Fin cfg0.N) : Vec F S400x128 .f32 := k0_pay2 (iblk m c 0 t) (Y1 m c) (iblk m c 3 t)
/-- The band a row of H lies in. -/
def bandOf (idx : S10000x128.Idx) : Fin cfg0.N := pt ((idx 0).val / 400) (by have := ValueIdx.idx2_lt0 idx; omega)
/-- A row's position within its band. -/
def inBand (idx : S10000x128.Idx) : S400x128.Idx :=
  ValueIdx.ix2 (n0 := 400) (n1 := 128) ⟨(idx 0).val % 400, Nat.mod_lt _ (by decide)⟩ (idx 1)
/-- The whole of H. -/
def Hval (c : Dev nD) : Vec F S10000x128 .f32 := fun idx => Hband m c (bandOf idx) (inBand idx)
/-- H·W2, as the last layer-0 point stores it. -/
def Y2 (c : Dev nD) : Vec F S10000x64 .bf16 := k0_pay3 (Hval m c) (iblk m c 4 tC)
/-- The output block of layer-1 point `t`. -/
def Oband (c : Dev nD) (t : Fin cfg0.N) : Vec F S400x64 .f32 := k0_pay4 (iblk m c 0 t) (Y2 m c) (iblk m c 5 t)

/-! ## One band store, read at an index -/

/-- A row inside the stored band reads the band. -/
theorem storeBand_hit (t : Fin cfg0.N) (ht : t.val < 25) (hc2 : cond2 (grid0.coords t)) (a : Memref sig .tc .vmem S10000x128 .f32) (ha : a.IsWhole)
    (s : Vec F S10000x128 .f32) (w : Vec F S400x128 .f32) (idx : S10000x128.Idx)
    (h : 400 * t.val ≤ (idx 0).val ∧ (idx 0).val < 400 * t.val + 400) :
    storeBand (grid0.coords t) hc2 a ha s w idx = w (inBand idx) := by
  unfold storeBand
  refine View.read_writes_cons_rows_of_mem (d := ![10000, 128]) a.view _ (k0_off1_inb (grid0.coords t) hc2) w [] idx (inBand idx) (off1_eq t ht) ?_ ?_
  · show (idx 0).val = 400 * t.val + (idx 0).val % 400
    have := h.1; have := h.2; omega
  · rfl

/-- A row outside it reads what the scratch held. -/
theorem storeBand_miss (t : Fin cfg0.N) (ht : t.val < 25) (hc2 : cond2 (grid0.coords t)) (a : Memref sig .tc .vmem S10000x128 .f32) (ha : a.IsWhole)
    (s : Vec F S10000x128 .f32) (w : Vec F S400x128 .f32) (idx : S10000x128.Idx)
    (h : (idx 0).val < 400 * t.val ∨ 400 * t.val + 400 ≤ (idx 0).val) :
    storeBand (grid0.coords t) hc2 a ha s w idx = s idx := by
  unfold storeBand
  refine (View.read_writes_cons_rows_of_not_mem (d := ![10000, 128]) (W := 400) a.view _ (k0_off1_inb (grid0.coords t) hc2) w [] idx (off1_eq t ht) rfl h).trans ?_
  rw [View.writes_nil, ha.read_unread]

/-- THE STEP: if the rows below 400·t of the scratch hold H, then after point t's band store the rows below 400·(t+1) do. -/
theorem band_step (c : Dev nD) (t : Fin cfg0.N) (ht : t.val < 25) (hc2 : cond2 (grid0.coords t)) (a : Memref sig .tc .vmem S10000x128 .f32) (ha : a.IsWhole)
    (f : Vec F S10000x128 .f32) (hf : ∀ idx : S10000x128.Idx, (idx 0).val < 400 * t.val → f idx = Hval m c idx)
    (idx : S10000x128.Idx) (h : (idx 0).val < 400 * (t.val + 1)) :
    storeBand (grid0.coords t) hc2 a ha f (Hband m c t) idx = Hval m c idx := by
  by_cases hlo : (idx 0).val < 400 * t.val
  · rw [storeBand_miss t ht hc2 a ha f _ idx (Or.inl hlo)]; exact hf idx hlo
  · rw [storeBand_hit t ht hc2 a ha f _ idx ⟨by omega, by omega⟩]
    unfold Hval
    have e : bandOf idx = t := Fin.ext (by show (idx 0).val / 400 = t.val; omega)
    rw [e]

/-- After the last band the scratch IS H. -/
theorem band_last (c : Dev nD) (hc2 : cond2 (grid0.coords tC)) (a : Memref sig .tc .vmem S10000x128 .f32) (ha : a.IsWhole)
    (f : Vec F S10000x128 .f32) (hf : ∀ idx : S10000x128.Idx, (idx 0).val < 400 * 24 → f idx = Hval m c idx) :
    storeBand (grid0.coords tC) hc2 a ha f (Hband m c tC) = Hval m c :=
  funext fun idx => band_step m c tC (by decide) hc2 a ha f hf idx (by have := ValueIdx.idx2_lt0 idx; show (idx 0).val < 400 * (24 + 1); omega)

/-! ## The region invariant, by the point number -/

/-- Before point `n`. -/
def PhiS (c : Dev nD) (n : ℕ) : sProp 𝕄 :=
  if n = 0 then Pipeline.ΦA spec0 c
  else if n < 25 then
    iprop(iprop(owns (c : Thread nD τ) scA fullShare (Y1 m c) ∗ (∃ d, owns (c : Thread nD τ) scB fullShare d)
      ∗ (∃ f, ⌜∀ idx : S10000x128.Idx, (idx 0).val < 400 * n → f idx = Hval m c idx⌝ ∗ owns (c : Thread nD τ) scH fullShare f)) ∗ (∃ r, prngReg c r))
  else
    iprop(iprop((∃ d, owns (c : Thread nD τ) scA fullShare d) ∗ owns (c : Thread nD τ) scB fullShare (Y2 m c)
      ∗ (∃ d, owns (c : Thread nD τ) scH fullShare d)) ∗ (∃ r, prngReg c r))

theorem PhiS_zero (c : Dev nD) : PhiS m c 0 = Pipeline.ΦA spec0 c := if_pos rfl
theorem PhiS_low (c : Dev nD) (n : ℕ) (h0 : n ≠ 0) (h : n < 25) : PhiS m c n =
    iprop(iprop(owns (c : Thread nD τ) scA fullShare (Y1 m c) ∗ (∃ d, owns (c : Thread nD τ) scB fullShare d)
      ∗ (∃ f, ⌜∀ idx : S10000x128.Idx, (idx 0).val < 400 * n → f idx = Hval m c idx⌝ ∗ owns (c : Thread nD τ) scH fullShare f)) ∗ (∃ r, prngReg c r)) :=
  (if_neg h0).trans (if_pos h)
theorem PhiS_high (c : Dev nD) (n : ℕ) (h : 25 ≤ n) : PhiS m c n =
    iprop(iprop((∃ d, owns (c : Thread nD τ) scA fullShare d) ∗ owns (c : Thread nD τ) scB fullShare (Y2 m c)
      ∗ (∃ d, owns (c : Thread nD τ) scH fullShare d)) ∗ (∃ r, prngReg c r)) :=
  (if_neg (by omega)).trans (if_neg (by omega))

/-! ## The pipeline's proof data -/

/-- The arrays as the region finds them; after the body each input's buffer at its block, the output's at the layer-1
    block (at a layer-0 point the output window is idle and this is not consulted); the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Oband m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = Oband m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

end Cert.Kernel.Body

end
-- ==== Proof.K.Sound.lean ====
/-
  The body obligation of the fused kernel at every point, and the frame run.

  At each point the closed forms of the four conditions pick the case; the invariant hands the case's run the scratch
  contents it tracks and takes them back one step further: after the first point the first scratch holds Y1 and
  rows 0..399 of the third hold H; after a middle layer-0 point 400 more rows do; after the last layer-0 point all
  of H is in place, so the product stored in the second scratch is Y2; in layer 1 the output block is stored from Y2.
-/
import proofs.«181885_g74002286510483_cont_9to1_m_578_17_alg».proof.Proof.K.Data
import Idealize.ShloMosaic.Lib.Pipeline.Frame

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first point the product the body stores is Y1. -/
theorem Y1_at (c : Dev nD) (t : Fin cfg0.N) (hz : t.val = 0) : k0_pay1 (iblk m c 1 t) (iblk m c 2 t) = Y1 m c := by
  obtain rfl : t = tA := Fin.ext hz; rfl

/-- At the last layer-0 point, over a scratch whose first 24 bands hold H, the product the body stores is Y2. -/
theorem Y2_at (c : Dev nD) (t : Fin cfg0.N) (h24 : t.val = 24) (hc2 : cond2 (grid0.coords t)) (a : Memref sig .tc .vmem S10000x128 .f32) (ha : a.IsWhole)
    (f : Vec F S10000x128 .f32) (hf : ∀ idx : S10000x128.Idx, (idx 0).val < 400 * 24 → f idx = Hval m c idx) :
    k0_pay3 (storeBand (grid0.coords t) hc2 a ha f (k0_pay2 (iblk m c 0 t) (Y1 m c) (iblk m c 3 t))) (iblk m c 4 t) = Y2 m c := by
  obtain rfl : t = tC := Fin.ext h24
  unfold Y2
  rw [show k0_pay2 (iblk m c 0 tC) (Y1 m c) (iblk m c 3 tC) = Hband m c tC from rfl, band_last m c hc2 a ha f hf]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

theorem lv0 (c : Dev nD) (t : Fin cfg0.N) : (dats m 0 c).leavesExact 0 t = owns (c : Thread nD τ) (ms0 t) fullShare (iblk m c 0 t) := by
  unfold Dat.leavesExact; rw [liveAt0 t, after0]
theorem lv1 (c : Dev nD) (t : Fin cfg0.N) : (dats m 0 c).leavesExact 1 t = owns (c : Thread nD τ) (ms1 t) fullShare (iblk m c 1 t) := by
  unfold Dat.leavesExact; rw [liveAt1 t, after1]
theorem lv2 (c : Dev nD) (t : Fin cfg0.N) : (dats m 0 c).leavesExact 2 t = owns (c : Thread nD τ) (ms2 t) fullShare (iblk m c 2 t) := by
  unfold Dat.leavesExact; rw [liveAt2 t, after2]
theorem lv3 (c : Dev nD) (t : Fin cfg0.N) : (dats m 0 c).leavesExact 3 t = owns (c : Thread nD τ) (ms3 t) fullShare (iblk m c 3 t) := by
  unfold Dat.leavesExact; rw [liveAt3 t, after3]
theorem lv4 (c : Dev nD) (t : Fin cfg0.N) : (dats m 0 c).leavesExact 4 t = owns (c : Thread nD τ) (ms4 t) fullShare (iblk m c 4 t) := by
  unfold Dat.leavesExact; rw [liveAt4 t, after4]
theorem lv5 (c : Dev nD) (t : Fin cfg0.N) : (dats m 0 c).leavesExact 5 t = owns (c : Thread nD τ) (ms5 t) fullShare (iblk m c 5 t) := by
  unfold Dat.leavesExact; rw [liveAt5 t, after5]
theorem lv6 (c : Dev nD) (t : Fin cfg0.N) (h : 25 ≤ t.val) : (dats m 0 c).leavesExact 6 t = owns (c : Thread nD τ) (ms6 t) fullShare (Oband m c t) := by
  unfold Dat.leavesExact; rw [liveAt6 t h, after6]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [lv0, lv1, lv2, lv3, lv4, lv5]
  have hN : t.val < 50 := lt_of_lt_of_eq t.isLt N50
  by_cases h25 : t.val < 25
  · rw [Dat.leavesExact_idle (dats m 0 c) 6 t (idleAt6 t h25) (noFlush6 t h25)]
    have hc2 : cond2 (grid0.coords t) := (hcond2 t).mpr h25
    have hc4 : ¬cond4 (grid0.coords t) := fun h => by have := (hcond4 t).mp h; omega
    by_cases hz : t.val = 0
    · -- the first point
      have hc1 : cond1 (grid0.coords t) := (hcond1 t).mpr hz
      have hc3 : ¬cond3 (grid0.coords t) := fun h => by have := (hcond3 t).mp h; omega
      rw [show PhiS m c t.val = PhiS m c 0 from by rw [hz], PhiS_zero, PhiA_eq, PhiS_low m c (t.val + 1) (by omega) (by omega)]
      iintro ⟨⟨⟨⟨%d9, HS9⟩, HS10, ⟨%d11, HS11⟩⟩, Hg⟩, Ho, ⟨%e0, H0⟩, ⟨%e1, H1⟩, ⟨%e2, H2⟩, ⟨%e3, H3⟩, ⟨%e4, H4⟩, ⟨%e5, H5⟩, H6⟩
      iapply (runA c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) scH (Memref.isWhole_whole _) hc1 hc2 hc3 hc4 (iblk m c 0 t) (iblk m c 1 t) (iblk m c 2 t) (iblk m c 3 t) d9 d11 Set.univ _)
      isplitl [H0]; · iexact H0
      isplitl [H1]; · iexact H1
      isplitl [H2]; · iexact H2
      isplitl [H3]; · iexact H3
      isplitl [HS9]; · iexact HS9
      isplitl [HS11]; · iexact HS11
      iintro ⟨H0, H1, H2, H3, HS9, HS11⟩
      simp only [Y1_at m c t hz]
      isplitl [HS9 HS10 HS11 Hg]
      · isplitr [Hg]
        · isplitl [HS9]; · iexact HS9
          isplitl [HS10]; · iexact HS10
          iexists _; isplitr
          swap; · iexact HS11
          ipureintro; intro idx hidx
          exact band_step m c t h25 hc2 scH _ d11 (fun idx h => absurd h (by omega)) idx hidx
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1 (grid0.coords t) := fun h => hz ((hcond1 t).mp h)
      by_cases h24 : t.val = 24
      · -- the last point of layer 0
        have hc3 : cond3 (grid0.coords t) := (hcond3 t).mpr h24
        rw [PhiS_low m c t.val hz h25, PhiS_high m c (t.val + 1) (by omega)]
        iintro ⟨⟨⟨HS9, ⟨%d10, HS10⟩, ⟨%f11, %hf11, HS11⟩⟩, Hg⟩, Ho, ⟨%e0, H0⟩, ⟨%e1, H1⟩, ⟨%e2, H2⟩, ⟨%e3, H3⟩, ⟨%e4, H4⟩, ⟨%e5, H5⟩, H6⟩
        have hf11' : ∀ idx : S10000x128.Idx, (idx 0).val < 400 * 24 → f11 idx = Hval m c idx := fun idx h => hf11 idx (by rw [h24]; exact h)
        iapply (runC c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) scH (Memref.isWhole_whole _) hc1 hc2 hc3 hc4 (iblk m c 0 t) (iblk m c 3 t) (iblk m c 4 t) (Y1 m c) d10 f11 Set.univ _)
        isplitl [H0]; · iexact H0
        isplitl [H3]; · iexact H3
        isplitl [H4]; · iexact H4
        isplitl [HS9]; · iexact HS9
        isplitl [HS10]; · iexact HS10
        isplitl [HS11]; · iexact HS11
        iintro ⟨H0, H3, H4, HS9, HS10, HS11⟩
        rw [Y2_at m c t h24 hc2 scH (Memref.isWhole_whole _) f11 hf11']
        isplitl [HS9 HS10 HS11 Hg]
        · isplitr [Hg]
          · isplitl [HS9]; · iexists _; iexact HS9
            isplitl [HS10]; · iexact HS10
            iexists _; iexact HS11
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · -- a middle point of layer 0
        have hc3 : ¬cond3 (grid0.coords t) := fun h => h24 ((hcond3 t).mp h)
        rw [PhiS_low m c t.val hz h25, PhiS_low m c (t.val + 1) (by omega) (by omega)]
        iintro ⟨⟨⟨HS9, HS10, ⟨%f11, %hf11, HS11⟩⟩, Hg⟩, Ho, ⟨%e0, H0⟩, ⟨%e1, H1⟩, ⟨%e2, H2⟩, ⟨%e3, H3⟩, ⟨%e4, H4⟩, ⟨%e5, H5⟩, H6⟩
        iapply (runB c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) scH (Memref.isWhole_whole _) hc1 hc2 hc3 hc4 (iblk m c 0 t) (iblk m c 3 t) (Y1 m c) f11 Set.univ _)
        isplitl [H0]; · iexact H0
        isplitl [H3]; · iexact H3
        isplitl [HS9]; · iexact HS9
        isplitl [HS11]; · iexact HS11
        iintro ⟨H0, H3, HS9, HS11⟩
        isplitl [HS9 HS10 HS11 Hg]
        · isplitr [Hg]
          · isplitl [HS9]; · iexact HS9
            isplitl [HS10]; · iexact HS10
            iexists _; isplitr
            swap; · iexact HS11
            ipureintro; intro idx hidx
            exact band_step m c t h25 hc2 scH _ f11 hf11 idx hidx
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
  · -- layer 1
    have h25' : 25 ≤ t.val := by omega
    have hc1 : ¬cond1 (grid0.coords t) := fun h => by have := (hcond1 t).mp h; omega
    have hc2 : ¬cond2 (grid0.coords t) := fun h => h25 ((hcond2 t).mp h)
    have hc3 : ¬cond3 (grid0.coords t) := fun h => by have := (hcond3 t).mp h; omega
    have hc4 : cond4 (grid0.coords t) := (hcond4 t).mpr h25'
    rw [lv6 m c t h25', PhiS_high m c t.val h25', PhiS_high m c (t.val + 1) (by omega)]
    iintro ⟨⟨⟨HS9, HS10, HS11⟩, Hg⟩, Ho, ⟨%e0, H0⟩, ⟨%e1, H1⟩, ⟨%e2, H2⟩, ⟨%e3, H3⟩, ⟨%e4, H4⟩, ⟨%e5, H5⟩, ⟨%d6, H6⟩⟩
    iapply (runD c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) scH (Memref.isWhole_whole _) hc1 hc2 hc3 hc4 (iblk m c 0 t) (iblk m c 5 t) (Y2 m c) ((dats m 0 c).before 6 t d6) Set.univ _)
    isplitl [H0]; · iexact H0
    isplitl [H5]; · iexact H5
    isplitl [HS10]; · iexact HS10
    isplitl [H6]; · iexact H6
    iintro ⟨H0, H5, HS10, H6⟩
    isplitl [HS9 HS10 HS11 Hg]
    · isplitr [Hg]
      · isplitl [HS9]; · iexact HS9
        isplitl [HS10]; · iexact HS10
        iexact HS11
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero]
  try exact Idealize.SL.BI.Entails.refl _

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c cfg0.N from rfl, PhiS_high m c _ (by rw [N50]; decide), PhiA_eq]
  iintro ⟨⟨HS9, HS10, HS11⟩, Hg⟩
  isplitl [HS9 HS10 HS11]
  · isplitl [HS9]; · iexact HS9
    isplitl [HS10]; · iexists _; iexact HS10
    iexact HS11
  iexact Hg

set_option backward.isDefEq.respectTransparency.types false in
/-- THE FRAME RUN: every weakly fair execution of @main terminates, every array of the pipeline ends at what the library
    computes from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: the program runs to the end and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KI.Cases.lean ====
/-
  The control of the fused kernel over its grid of 2 × 25 points (layer, row band).  The body has four
  conditionals on the grid coordinates: the first point (0,0) computes x·W1 into the first scratch; every layer-0
  point computes one 400-row band of max(adj0·(x·W1) + b1, 0) into the third scratch; the last layer-0 point (0,24)
  multiplies the completed third scratch by W2 into the second scratch; every layer-1 point computes one band of
  adj1·(h·W2) + b2 into the output block.  Here: the four conditions in closed form over the linear point number
  t = 25·layer + band, where the output window is idle and where it is written back, the memrefs the pipeline
  calls the body with, and the region invariant's scratch part as three owned memrefs.
-/
import proofs.«181885_g74002286510483_cont_9to1_m_578_17_alg».proof.Proof.Gen.KernelIdeal.Launch
import proofs.«181885_g74002286510483_cont_9to1_m_578_17_alg».proof.Proof.Gen.KernelIdeal.Skeleton
import proofs.«181885_g74002286510483_cont_9to1_m_578_17_alg».proof.Proof.Gen.KernelIdeal.Points
import proofs.«181885_g74002286510483_cont_9to1_m_578_17_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The four conditions -/

/-- The first conditional: layer 0 and band 0. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second: layer 0. -/
abbrev cond2 (i : grid0.Coords) : Prop := k0_cond2 i = 1#1
/-- The third: layer 0 and band 24, the last. -/
abbrev cond3 (i : grid0.Coords) : Prop :=
  (Scalar.cmpi .ne (Scalar.extui (Scalar.andi (Scalar.cmpi .eq (BitVec.ofNat 32 (i 0).val) 0#32) (Scalar.cmpi .eq (BitVec.ofNat 32 (i 1).val) 24#32))) 0#32) = 1#1
/-- The fourth: layer 1. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ t.val = 24 :=
  (by decide +kernel : ∀ t : Fin grid0.N, cond3 (grid0.coords t) ↔ t.val = 24)
theorem hcond4 : ∀ t : Fin cfg0.N, cond4 (grid0.coords t) ↔ 25 ≤ t.val :=
  (by decide +kernel : ∀ t : Fin grid0.N, cond4 (grid0.coords t) ↔ 25 ≤ t.val)

/-- The row offset of the band the layer-0 body stores: 400 · band. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the output is written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
/-- In layer 0 the body stores nothing into the output block: the window is idle there, -/
theorem idleAt6 : ∀ t : Fin cfg0.N, t.val < 25 → cfg0.idle 6 (grid0.coords t) = true := by decide +kernel
/-- and the pipeline does not write the block back (its index stays 0 until the second point of layer 1). -/
theorem noFlush6 : ∀ t : Fin cfg0.N, t.val < 25 → (cfg0.win 6).flush t = false := by decide +kernel
/-- In layer 1 the body stores the whole block: the window is live, -/
theorem liveAt6 : ∀ t : Fin cfg0.N, 25 ≤ t.val → cfg0.idle 6 (grid0.coords t) = false := by decide +kernel
/-- and the block is written back after every point. -/
theorem flush6 : ∀ t : Fin cfg0.N, 25 ≤ t.val → (cfg0.win 6).flush t = true := by decide +kernel
/-- The output block's index at a layer-1 point is the band. -/
theorem index6 : ∀ t : Fin cfg0.N, 25 ≤ t.val → (cfg0.win 6).index t = ![t.val - 25, 0] := by decide +kernel

/-! ## The memrefs the pipeline calls the body with -/

abbrev ms0 (t : Fin cfg0.N) : Memref sig .tc .vmem S1x400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x64 .f32 := win0_6.stage (cfg0.slots t 6)
abbrev hs6 (t : Fin cfg0.N) : (ms6 t).IsWhole := hstage0_6 ((cfg0.slots t 6).cast nbuf0_6)
/-- The three scratch operands: x·W1 (bf16), h·W2 (bf16), h (f32). -/
abbrev scA : Memref sig .tc .vmem S10000x128 .bf16 := Memref.whole cc0_scratch0
abbrev scB : Memref sig .tc .vmem S10000x64 .bf16 := Memref.whole cc0_scratch1
abbrev scH : Memref sig .tc .vmem S10000x128 .f32 := Memref.whole cc0_scratch2

/-- The class invariant with the scratch operands as memrefs owned at some contents. -/
theorem PhiA_eq (c : Dev nD) :
    (Pipeline.ΦA spec0 c : sProp 𝕄)
      = iprop(iprop((∃ d, owns (c : Thread nD τ) scA fullShare d) ∗ (∃ d, owns (c : Thread nD τ) scB fullShare d) ∗ (∃ d, owns (c : Thread nD τ) scH fullShare d)) ∗ (∃ r, prngReg c r)) := by
  unfold Pipeline.ΦA; rw [scopedRest0_eq]; simp only [scA, scB, scH, owns_whole]; try rfl

end Cert.KernelIdeal.Body

end
-- ==== Proof.KI.Runs.lean ====
/-
  The kernel body run once in each of its four control cases, on any whole staging and scratch memrefs.

  Case A (the first point): x·W1 is stored whole into the first scratch, read back, and band 0 of
  max(adj0·(x·W1) + b1, 0) is stored into rows 0..399 of the third scratch.  Case B (a later layer-0 point but the
  last): only the band store, the first scratch read as it was left.  Case C (the last layer-0 point): the band store,
  then the third scratch read WHOLE and its product with W2 stored whole into the second scratch.  Case D (a
  layer-1 point): the output block stored whole from the adjacency block, the second scratch and b2.
  Each statement names every buffer the case touches: what it holds before, what it holds after.
-/
import proofs.«181885_g74002286510483_cont_9to1_m_578_17_alg».proof.Proof.KI.Cases
import proofs.«181885_g74002286510483_cont_9to1_m_578_17_alg».proof.Proof.LibUnitZero

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The third scratch after one band store over contents `s`: rows `k0_off1 i` .. +399 hold the band `w`, the others `s`. -/
def storeBand (i : grid0.Coords) (hc2 : cond2 i) (arg11 : Memref sig .tc .vmem S10000x128 .f32) (harg11 : arg11.IsWhole)
    (s : Vec F S10000x128 .f32) (w : Vec F S400x128 .f32) : Vec F S10000x128 .f32 :=
  arg11.view.read (Elt F) (arg11.view.writes (Elt F) (harg11.unread s)
    [⟨Rect.unit (s := S10000x128) (k0_off1 i) S400x128.size (k0_off1_inb i hc2), w⟩])

set_option maxHeartbeats 2000000 in
theorem runA (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (arg11 : Memref sig .tc .vmem S10000x128 .f32) (harg11 : arg11.IsWhole) (hc1 : cond1 i) (hc2 : cond2 i) (hc3 : ¬cond3 i) (hc4 : ¬cond4 i)
    (x2 : Vec F S1x400x10000 .f32) (x3 : Vec F S10000x128 .f32) (x4 : Vec F S128x128 .f32) (x5 : Vec F S1x128 .f32) (s9 : Vec F S10000x128 .bf16) (s11 : Vec F S10000x128 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare s9 ∗ owns (c : Thread nD τ) arg11 fullShare s11
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare (k0_pay1 x3 x4) ∗ owns (c : Thread nD τ) arg11 fullShare (storeBand i hc2 arg11 harg11 s11 (k0_pay2 x2 (k0_pay1 x3 x4) x5))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f3, %hf3, H3⟩, ⟨%f4, %hf4, H4⟩, ⟨%f5, %hf5, H5⟩, ⟨%f9, %hf9, H9⟩, ⟨%f11, %hf11, H11⟩, Hk⟩
  obtain rfl := harg2.eq_unread hf2; obtain rfl := harg3.eq_unread hf3; obtain rfl := harg4.eq_unread hf4; obtain rfl := harg5.eq_unread hf5; obtain rfl := harg9.eq_unread hf9; obtain rfl := harg11.eq_unread hf11
  sl_exec (disch := first | exact hc1 | exact hc2 | exact hc3 | exact hc4)
  sl_step
  sl_unfold_words
  simp only [Memref.IsWhole.readAt_unread_unit_zero (S := S1x400x10000) _ zeroOff3, Memref.IsWhole.readAt_unread_unit_zero (S := S10000x128) _ zeroOff2, Memref.IsWhole.readAt_unread_unit_zero (S := S128x128) _ zeroOff2, Memref.IsWhole.readAt_unread_unit_zero (S := S1x128) _ zeroOff2, Memref.IsWhole.readAt_unread_unit_zero (S := S128x64) _ zeroOff2, Memref.IsWhole.readAt_unread_unit_zero (S := S1x64) _ zeroOff2, Memref.IsWhole.readAt_unread_unit_zero (S := S10000x64) _ zeroOff2, Memref.IsWhole.readAt_unread_unit_zero (S := S400x64) _ zeroOff2, View.readCov_unit_zero (S := S10000x128) _ zeroOff2]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H9]
  · iexists _; isplitr
    swap; · iexact H9
    ipureintro; exact View.read_writes_unit_zero _ _ zeroOff2 _ _
  iexists _; isplitr
  swap; · iexact H11
  ipureintro; rfl

set_option maxHeartbeats 2000000 in
theorem runB (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (arg11 : Memref sig .tc .vmem S10000x128 .f32) (harg11 : arg11.IsWhole) (hc1 : ¬cond1 i) (hc2 : cond2 i) (hc3 : ¬cond3 i) (hc4 : ¬cond4 i)
    (x2 : Vec F S1x400x10000 .f32) (x5 : Vec F S1x128 .f32) (s9 : Vec F S10000x128 .bf16) (s11 : Vec F S10000x128 .f32)
    (E : Set ℕ) (K : PUnit → sProp 𝕄) :
    iprop(owns (c : Thread nD τ) arg2 fullShare x2 ∗ owns (c : Thread nD τ) arg5 fullShare x5 ∗ owns (c : Thread nD τ) arg9 fullShare s9 ∗ owns (c : Thread nD τ) arg11 fullShare s11
        ∗ (iprop(owns (c : Thread nD τ) arg2 fullShare x2 ∗ owns (c : Thread nD τ) arg5 fullShare x5 ∗ owns (c : Thread nD τ) arg9 fullShare s9 ∗ owns (c : Thread nD τ) arg11 fullShare (storeBand i hc2 arg11 harg11 s11 (k0_pay2 x2 s9 x5))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f5, %hf5, H5⟩, ⟨%f9, %hf9, H9⟩, ⟨%f11, %hf11, H11⟩, Hk⟩
  obtain rfl := harg2.eq_unread hf2; obtain rfl := harg5.eq_unread hf5; obtain rfl := harg9.eq_unread hf9; obtain rfl := harg11.eq_unread hf11
  sl_exec (disch := first | exact hc1 | exact hc2 | exact hc3 | exact hc4)
  sl_step
  sl_unfold_words
  simp only [Memref.IsWhole.readAt_unread_unit_zero (S := S1x400x10000) _ zeroOff3, Memref.IsWhole.readAt_unread_unit_zero (S := S10000x128) _ zeroOff2, Memref.IsWhole.readAt_unread_unit_zero (S := S128x128) _ zeroOff2, Memref.IsWhole.readAt_unread_unit_zero (S := S1x128) _ zeroOff2, Memref.IsWhole.readAt_unread_unit_zero (S := S128x64) _ zeroOff2, Memref.IsWhole.readAt_unread_unit_zero (S := S1x64) _ zeroOff2, Memref.IsWhole.readAt_unread_unit_zero (S := S10000x64) _ zeroOff2, Memref.IsWhole.readAt_unread_unit_zero (S := S400x64) _ zeroOff2, View.readCov_unit_zero (S := S10000x128) _ zeroOff2]
  iapply Hk
  isplitl [H2]
  · iexists _; isplitr; · ipureintro; exact harg2.read_unread _
    iexact H2
  isplitl [H5]
  · iexists _; isplitr; · ipureintro; exact harg5.read_unread _
    iexact H5
  isplitl [H9]
  · iexists _; isplitr; · ipureintro; exact harg9.read_unread _
    iexact H9
  iexists _; isplitr
  swap; · iexact H11
  ipureintro; rfl

set_option maxHeartbeats 2000000 in
theorem runC (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (arg11 : Memref sig .tc .vmem S10000x128 .f32) (harg11 : arg11.IsWhole) (hc1 : ¬cond1 i) (hc2 : cond2 i) (hc3 : cond3 i) (hc4 : ¬cond4 i)
    (x2 : Vec F S1x400x10000 .f32) (x5 : Vec F S1x128 .f32) (x6 : Vec F S128x64 .f32) (s9 : Vec F S10000x128 .bf16) (s10 : Vec F S10000x64 .bf16) (s11 : Vec F S10000x128 .f32)
    (E : Set ℕ) (K : PUnit → sProp 𝕄) :
    iprop(owns (c : Thread nD τ) arg2 fullShare x2 ∗ owns (c : Thread nD τ) arg5 fullShare x5 ∗ owns (c : Thread nD τ) arg6 fullShare x6 ∗ owns (c : Thread nD τ) arg9 fullShare s9 ∗ owns (c : Thread nD τ) arg10 fullShare s10 ∗ owns (c : Thread nD τ) arg11 fullShare s11
        ∗ (iprop(owns (c : Thread nD τ) arg2 fullShare x2 ∗ owns (c : Thread nD τ) arg5 fullShare x5 ∗ owns (c : Thread nD τ) arg6 fullShare x6 ∗ owns (c : Thread nD τ) arg9 fullShare s9 ∗ owns (c : Thread nD τ) arg10 fullShare (k0_pay3 (storeBand i hc2 arg11 harg11 s11 (k0_pay2 x2 s9 x5)) x6) ∗ owns (c : Thread nD τ) arg11 fullShare (storeBand i hc2 arg11 harg11 s11 (k0_pay2 x2 s9 x5))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f5, %hf5, H5⟩, ⟨%f6, %hf6, H6⟩, ⟨%f9, %hf9, H9⟩, ⟨%f10, %hf10, H10⟩, ⟨%f11, %hf11, H11⟩, Hk⟩
  obtain rfl := harg2.eq_unread hf2; obtain rfl := harg5.eq_unread hf5; obtain rfl := harg6.eq_unread hf6; obtain rfl := harg9.eq_unread hf9; obtain rfl := harg10.eq_unread hf10; obtain rfl := harg11.eq_unread hf11
  sl_exec (disch := first | exact hc1 | exact hc2 | exact hc3 | exact hc4)
  sl_step
  sl_unfold_words
  simp only [Memref.IsWhole.readAt_unread_unit_zero (S := S1x400x10000) _ zeroOff3, Memref.IsWhole.readAt_unread_unit_zero (S := S10000x128) _ zeroOff2, Memref.IsWhole.readAt_unread_unit_zero (S := S128x128) _ zeroOff2, Memref.IsWhole.readAt_unread_unit_zero (S := S1x128) _ zeroOff2, Memref.IsWhole.readAt_unread_unit_zero (S := S128x64) _ zeroOff2, Memref.IsWhole.readAt_unread_unit_zero (S := S1x64) _ zeroOff2, Memref.IsWhole.readAt_unread_unit_zero (S := S10000x64) _ zeroOff2, Memref.IsWhole.readAt_unread_unit_zero (S := S400x64) _ zeroOff2, View.readCov_unit_zero (S := S10000x128) _ zeroOff2]
  iapply Hk
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H9]
  · iexists _; isplitr; · ipureintro; exact harg9.read_unread _
    iexact H9
  isplitl [H10]
  · iexists _; isplitr
    swap; · iexact H10
    ipureintro
    refine (View.read_writes_unit_zero _ _ zeroOff2 _ _).trans ?_
    rw [View.readAt_eq_ld, View.ld_unit_zero zeroOff2]
    rfl
  iexists _; isplitr
  swap; · iexact H11
  ipureintro; rfl

set_option maxHeartbeats 2000000 in
theorem runD (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S400x64 .f32) (harg8 : arg8.IsWhole) (arg9 : Memref sig .tc .vmem S10000x128 .bf16) (harg9 : arg9.IsWhole) (arg10 : Memref sig .tc .vmem S10000x64 .bf16) (harg10 : arg10.IsWhole) (arg11 : Memref sig .tc .vmem S10000x128 .f32) (harg11 : arg11.IsWhole) (hc1 : ¬cond1 i) (hc2 : ¬cond2 i) (hc3 : ¬cond3 i) (hc4 : cond4 i)
    (x2 : Vec F S1x400x10000 .f32) (x7 : Vec F S1x64 .f32) (s10 : Vec F S10000x64 .bf16) (d8 : Vec F S400x64 .f32)
    (E : Set ℕ) (K : PUnit → sProp 𝕄) :
    iprop(owns (c : Thread nD τ) arg2 fullShare x2 ∗ owns (c : Thread nD τ) arg7 fullShare x7 ∗ owns (c : Thread nD τ) arg10 fullShare s10 ∗ owns (c : Thread nD τ) arg8 fullShare d8
        ∗ (iprop(owns (c : Thread nD τ) arg2 fullShare x2 ∗ owns (c : Thread nD τ) arg7 fullShare x7 ∗ owns (c : Thread nD τ) arg10 fullShare s10 ∗ owns (c : Thread nD τ) arg8 fullShare (k0_pay4 x2 s10 x7)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  unfold owns
  iintro ⟨⟨%f2, %hf2, H2⟩, ⟨%f7, %hf7, H7⟩, ⟨%f10, %hf10, H10⟩, ⟨%f8, %hf8, H8⟩, Hk⟩
  obtain rfl := harg2.eq_unread hf2; obtain rfl := harg7.eq_unread hf7; obtain rfl := harg10.eq_unread hf10; obtain rfl := harg8.eq_unread hf8
  sl_exec (disch := first | exact hc1 | exact hc2 | exact hc3 | exact hc4)
  sl_step
  sl_unfold_words
  simp only [Memref.IsWhole.readAt_unread_unit_zero (S := S1x400x10000) _ zeroOff3, Memref.IsWhole.readAt_unread_unit_zero (S := S10000x128) _ zeroOff2, Memref.IsWhole.readAt_unread_unit_zero (S := S128x128) _ zeroOff2, Memref.IsWhole.readAt_unread_unit_zero (S := S1x128) _ zeroOff2, Memref.IsWhole.readAt_unread_unit_zero (S := S128x64) _ zeroOff2, Memref.IsWhole.readAt_unread_unit_zero (S := S1x64) _ zeroOff2, Memref.IsWhole.readAt_unread_unit_zero (S := S10000x64) _ zeroOff2, Memref.IsWhole.readAt_unread_unit_zero (S := S400x64) _ zeroOff2, View.readCov_unit_zero (S := S10000x128) _ zeroOff2]
  iapply Hk
  isplitl [H2]
  · iexists _; isplitr; · ipureintro; exact harg2.read_unread _
    iexact H2
  isplitl [H7]
  · iexists _; isplitr; · ipureintro; exact harg7.read_unread _
    iexact H7
  isplitl [H10]
  · iexists _; isplitr; · ipureintro; exact harg10.read_unread _
    iexact H10
  iexists _; isplitr
  swap; · iexact H8
  ipureintro; exact View.read_writes_unit_zero _ _ zeroOff2 _ _

end Cert.KernelIdeal.Body

end
-- ==== Proof.KI.Data.lean ====
/-
  What the fused kernel holds, point by point.

  Y1 is x·W1 (rounded to the scratch's format, the identity on exact reals), stored by the first point.  Band k of
  H = max(adj0·Y1 + b1, 0), 400 rows, is stored by layer-0 point k into rows 400k..400k+399 of the third scratch;
  `Hval` is the whole of H, row r taken from band r / 400 at row r % 400.  Y2 is H·W2, stored by the last layer-0
  point once all 25 bands are in place.  The output block of layer-1 point t is adj1's band times Y2 plus b2.
  The region invariant tracks exactly this: before point n (1 ≤ n ≤ 24) the first scratch holds Y1 and the rows
  below 400·n of the third scratch hold H; from point 25 on the second scratch holds Y2.
-/
import proofs.«181885_g74002286510483_cont_9to1_m_578_17_alg».proof.Proof.KI.Runs
import Idealize.ShloMosaic.Lib.ValueIdx
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N50 : cfg0.N = 50 := N_0

/-- Point number `n` of the 50. -/
def pt (n : ℕ) (h : n < 50) : Fin cfg0.N := ⟨n, lt_of_lt_of_eq h N50.symm⟩
/-- The first point, and the last point of layer 0. -/
abbrev tA : Fin cfg0.N := pt 0 (by decide)
abbrev tC : Fin cfg0.N := pt 24 (by decide)

/-- x·W1, as the first point stores it. -/
def Y1 (c : Dev nD) : Vec F S10000x128 .bf16 := k0_pay1 (iblk m c 1 tA) (iblk m c 2 tA)
/-- Band `t` of max(adj0·Y1 + b1, 0): what layer-0 point `t` stores. -/
def Hband (c : Dev nD) (t : Fin cfg0.N) : Vec F S400x128 .f32 := k0_pay2 (iblk m c 0 t) (Y1 m c) (iblk m c 3 t)
/-- The band a row of H lies in. -/
def bandOf (idx : S10000x128.Idx) : Fin cfg0.N := pt ((idx 0).val / 400) (by have := ValueIdx.idx2_lt0 idx; omega)
/-- A row's position within its band. -/
def inBand (idx : S10000x128.Idx) : S400x128.Idx :=
  ValueIdx.ix2 (n0 := 400) (n1 := 128) ⟨(idx 0).val % 400, Nat.mod_lt _ (by decide)⟩ (idx 1)
/-- The whole of H. -/
def Hval (c : Dev nD) : Vec F S10000x128 .f32 := fun idx => Hband m c (bandOf idx) (inBand idx)
/-- H·W2, as the last layer-0 point stores it. -/
def Y2 (c : Dev nD) : Vec F S10000x64 .bf16 := k0_pay3 (Hval m c) (iblk m c 4 tC)
/-- The output block of layer-1 point `t`. -/
def Oband (c : Dev nD) (t : Fin cfg0.N) : Vec F S400x64 .f32 := k0_pay4 (iblk m c 0 t) (Y2 m c) (iblk m c 5 t)

/-! ## One band store, read at an index -/

/-- A row inside the stored band reads the band. -/
theorem storeBand_hit (t : Fin cfg0.N) (ht : t.val < 25) (hc2 : cond2 (grid0.coords t)) (a : Memref sig .tc .vmem S10000x128 .f32) (ha : a.IsWhole)
    (s : Vec F S10000x128 .f32) (w : Vec F S400x128 .f32) (idx : S10000x128.Idx)
    (h : 400 * t.val ≤ (idx 0).val ∧ (idx 0).val < 400 * t.val + 400) :
    storeBand (grid0.coords t) hc2 a ha s w idx = w (inBand idx) := by
  unfold storeBand
  refine View.read_writes_cons_rows_of_mem (d := ![10000, 128]) a.view _ (k0_off1_inb (grid0.coords t) hc2) w [] idx (inBand idx) (off1_eq t ht) ?_ ?_
  · show (idx 0).val = 400 * t.val + (idx 0).val % 400
    have := h.1; have := h.2; omega
  · rfl

/-- A row outside it reads what the scratch held. -/
theorem storeBand_miss (t : Fin cfg0.N) (ht : t.val < 25) (hc2 : cond2 (grid0.coords t)) (a : Memref sig .tc .vmem S10000x128 .f32) (ha : a.IsWhole)
    (s : Vec F S10000x128 .f32) (w : Vec F S400x128 .f32) (idx : S10000x128.Idx)
    (h : (idx 0).val < 400 * t.val ∨ 400 * t.val + 400 ≤ (idx 0).val) :
    storeBand (grid0.coords t) hc2 a ha s w idx = s idx := by
  unfold storeBand
  refine (View.read_writes_cons_rows_of_not_mem (d := ![10000, 128]) (W := 400) a.view _ (k0_off1_inb (grid0.coords t) hc2) w [] idx (off1_eq t ht) rfl h).trans ?_
  rw [View.writes_nil, ha.read_unread]

/-- THE STEP: if the rows below 400·t of the scratch hold H, then after point t's band store the rows below 400·(t+1) do. -/
theorem band_step (c : Dev nD) (t : Fin cfg0.N) (ht : t.val < 25) (hc2 : cond2 (grid0.coords t)) (a : Memref sig .tc .vmem S10000x128 .f32) (ha : a.IsWhole)
    (f : Vec F S10000x128 .f32) (hf : ∀ idx : S10000x128.Idx, (idx 0).val < 400 * t.val → f idx = Hval m c idx)
    (idx : S10000x128.Idx) (h : (idx 0).val < 400 * (t.val + 1)) :
    storeBand (grid0.coords t) hc2 a ha f (Hband m c t) idx = Hval m c idx := by
  by_cases hlo : (idx 0).val < 400 * t.val
  · rw [storeBand_miss t ht hc2 a ha f _ idx (Or.inl hlo)]; exact hf idx hlo
  · rw [storeBand_hit t ht hc2 a ha f _ idx ⟨by omega, by omega⟩]
    unfold Hval
    have e : bandOf idx = t := Fin.ext (by show (idx 0).val / 400 = t.val; omega)
    rw [e]

/-- After the last band the scratch IS H. -/
theorem band_last (c : Dev nD) (hc2 : cond2 (grid0.coords tC)) (a : Memref sig .tc .vmem S10000x128 .f32) (ha : a.IsWhole)
    (f : Vec F S10000x128 .f32) (hf : ∀ idx : S10000x128.Idx, (idx 0).val < 400 * 24 → f idx = Hval m c idx) :
    storeBand (grid0.coords tC) hc2 a ha f (Hband m c tC) = Hval m c :=
  funext fun idx => band_step m c tC (by decide) hc2 a ha f hf idx (by have := ValueIdx.idx2_lt0 idx; show (idx 0).val < 400 * (24 + 1); omega)

/-! ## The region invariant, by the point number -/

/-- Before point `n`. -/
def PhiS (c : Dev nD) (n : ℕ) : sProp 𝕄 :=
  if n = 0 then Pipeline.ΦA spec0 c
  else if n < 25 then
    iprop(iprop(owns (c : Thread nD τ) scA fullShare (Y1 m c) ∗ (∃ d, owns (c : Thread nD τ) scB fullShare d)
      ∗ (∃ f, ⌜∀ idx : S10000x128.Idx, (idx 0).val < 400 * n → f idx = Hval m c idx⌝ ∗ owns (c : Thread nD τ) scH fullShare f)) ∗ (∃ r, prngReg c r))
  else
    iprop(iprop((∃ d, owns (c : Thread nD τ) scA fullShare d) ∗ owns (c : Thread nD τ) scB fullShare (Y2 m c)
      ∗ (∃ d, owns (c : Thread nD τ) scH fullShare d)) ∗ (∃ r, prngReg c r))

theorem PhiS_zero (c : Dev nD) : PhiS m c 0 = Pipeline.ΦA spec0 c := if_pos rfl
theorem PhiS_low (c : Dev nD) (n : ℕ) (h0 : n ≠ 0) (h : n < 25) : PhiS m c n =
    iprop(iprop(owns (c : Thread nD τ) scA fullShare (Y1 m c) ∗ (∃ d, owns (c : Thread nD τ) scB fullShare d)
      ∗ (∃ f, ⌜∀ idx : S10000x128.Idx, (idx 0).val < 400 * n → f idx = Hval m c idx⌝ ∗ owns (c : Thread nD τ) scH fullShare f)) ∗ (∃ r, prngReg c r)) :=
  (if_neg h0).trans (if_pos h)
theorem PhiS_high (c : Dev nD) (n : ℕ) (h : 25 ≤ n) : PhiS m c n =
    iprop(iprop((∃ d, owns (c : Thread nD τ) scA fullShare d) ∗ owns (c : Thread nD τ) scB fullShare (Y2 m c)
      ∗ (∃ d, owns (c : Thread nD τ) scH fullShare d)) ∗ (∃ r, prngReg c r)) :=
  (if_neg (by omega)).trans (if_neg (by omega))

/-! ## The pipeline's proof data -/

/-- The arrays as the region finds them; after the body each input's buffer at its block, the output's at the layer-1
    block (at a layer-0 point the output window is idle and this is not consulted); the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Oband m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = Oband m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

end Cert.KernelIdeal.Body

end
-- ==== Proof.KI.Sound.lean ====
/-
  The body obligation of the fused kernel at every point, and the frame run.

  At each point the closed forms of the four conditions pick the case; the invariant hands the case's run the scratch
  contents it tracks and takes them back one step further: after the first point the first scratch holds Y1 and
  rows 0..399 of the third hold H; after a middle layer-0 point 400 more rows do; after the last layer-0 point all
  of H is in place, so the product stored in the second scratch is Y2; in layer 1 the output block is stored from Y2.
-/
import proofs.«181885_g74002286510483_cont_9to1_m_578_17_alg».proof.Proof.KI.Data
import Idealize.ShloMosaic.Lib.Pipeline.Frame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first point the product the body stores is Y1. -/
theorem Y1_at (c : Dev nD) (t : Fin cfg0.N) (hz : t.val = 0) : k0_pay1 (iblk m c 1 t) (iblk m c 2 t) = Y1 m c := by
  obtain rfl : t = tA := Fin.ext hz; rfl

/-- At the last layer-0 point, over a scratch whose first 24 bands hold H, the product the body stores is Y2. -/
theorem Y2_at (c : Dev nD) (t : Fin cfg0.N) (h24 : t.val = 24) (hc2 : cond2 (grid0.coords t)) (a : Memref sig .tc .vmem S10000x128 .f32) (ha : a.IsWhole)
    (f : Vec F S10000x128 .f32) (hf : ∀ idx : S10000x128.Idx, (idx 0).val < 400 * 24 → f idx = Hval m c idx) :
    k0_pay3 (storeBand (grid0.coords t) hc2 a ha f (k0_pay2 (iblk m c 0 t) (Y1 m c) (iblk m c 3 t))) (iblk m c 4 t) = Y2 m c := by
  obtain rfl : t = tC := Fin.ext h24
  unfold Y2
  rw [show k0_pay2 (iblk m c 0 tC) (Y1 m c) (iblk m c 3 tC) = Hband m c tC from rfl, band_last m c hc2 a ha f hf]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

theorem lv0 (c : Dev nD) (t : Fin cfg0.N) : (dats m 0 c).leavesExact 0 t = owns (c : Thread nD τ) (ms0 t) fullShare (iblk m c 0 t) := by
  unfold Dat.leavesExact; rw [liveAt0 t, after0]
theorem lv1 (c : Dev nD) (t : Fin cfg0.N) : (dats m 0 c).leavesExact 1 t = owns (c : Thread nD τ) (ms1 t) fullShare (iblk m c 1 t) := by
  unfold Dat.leavesExact; rw [liveAt1 t, after1]
theorem lv2 (c : Dev nD) (t : Fin cfg0.N) : (dats m 0 c).leavesExact 2 t = owns (c : Thread nD τ) (ms2 t) fullShare (iblk m c 2 t) := by
  unfold Dat.leavesExact; rw [liveAt2 t, after2]
theorem lv3 (c : Dev nD) (t : Fin cfg0.N) : (dats m 0 c).leavesExact 3 t = owns (c : Thread nD τ) (ms3 t) fullShare (iblk m c 3 t) := by
  unfold Dat.leavesExact; rw [liveAt3 t, after3]
theorem lv4 (c : Dev nD) (t : Fin cfg0.N) : (dats m 0 c).leavesExact 4 t = owns (c : Thread nD τ) (ms4 t) fullShare (iblk m c 4 t) := by
  unfold Dat.leavesExact; rw [liveAt4 t, after4]
theorem lv5 (c : Dev nD) (t : Fin cfg0.N) : (dats m 0 c).leavesExact 5 t = owns (c : Thread nD τ) (ms5 t) fullShare (iblk m c 5 t) := by
  unfold Dat.leavesExact; rw [liveAt5 t, after5]
theorem lv6 (c : Dev nD) (t : Fin cfg0.N) (h : 25 ≤ t.val) : (dats m 0 c).leavesExact 6 t = owns (c : Thread nD τ) (ms6 t) fullShare (Oband m c t) := by
  unfold Dat.leavesExact; rw [liveAt6 t h, after6]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [lv0, lv1, lv2, lv3, lv4, lv5]
  have hN : t.val < 50 := lt_of_lt_of_eq t.isLt N50
  by_cases h25 : t.val < 25
  · rw [Dat.leavesExact_idle (dats m 0 c) 6 t (idleAt6 t h25) (noFlush6 t h25)]
    have hc2 : cond2 (grid0.coords t) := (hcond2 t).mpr h25
    have hc4 : ¬cond4 (grid0.coords t) := fun h => by have := (hcond4 t).mp h; omega
    by_cases hz : t.val = 0
    · -- the first point
      have hc1 : cond1 (grid0.coords t) := (hcond1 t).mpr hz
      have hc3 : ¬cond3 (grid0.coords t) := fun h => by have := (hcond3 t).mp h; omega
      rw [show PhiS m c t.val = PhiS m c 0 from by rw [hz], PhiS_zero, PhiA_eq, PhiS_low m c (t.val + 1) (by omega) (by omega)]
      iintro ⟨⟨⟨⟨%d9, HS9⟩, HS10, ⟨%d11, HS11⟩⟩, Hg⟩, Ho, ⟨%e0, H0⟩, ⟨%e1, H1⟩, ⟨%e2, H2⟩, ⟨%e3, H3⟩, ⟨%e4, H4⟩, ⟨%e5, H5⟩, H6⟩
      iapply (runA c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) scH (Memref.isWhole_whole _) hc1 hc2 hc3 hc4 (iblk m c 0 t) (iblk m c 1 t) (iblk m c 2 t) (iblk m c 3 t) d9 d11 Set.univ _)
      isplitl [H0]; · iexact H0
      isplitl [H1]; · iexact H1
      isplitl [H2]; · iexact H2
      isplitl [H3]; · iexact H3
      isplitl [HS9]; · iexact HS9
      isplitl [HS11]; · iexact HS11
      iintro ⟨H0, H1, H2, H3, HS9, HS11⟩
      simp only [Y1_at m c t hz]
      isplitl [HS9 HS10 HS11 Hg]
      · isplitr [Hg]
        · isplitl [HS9]; · iexact HS9
          isplitl [HS10]; · iexact HS10
          iexists _; isplitr
          swap; · iexact HS11
          ipureintro; intro idx hidx
          exact band_step m c t h25 hc2 scH _ d11 (fun idx h => absurd h (by omega)) idx hidx
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1 (grid0.coords t) := fun h => hz ((hcond1 t).mp h)
      by_cases h24 : t.val = 24
      · -- the last point of layer 0
        have hc3 : cond3 (grid0.coords t) := (hcond3 t).mpr h24
        rw [PhiS_low m c t.val hz h25, PhiS_high m c (t.val + 1) (by omega)]
        iintro ⟨⟨⟨HS9, ⟨%d10, HS10⟩, ⟨%f11, %hf11, HS11⟩⟩, Hg⟩, Ho, ⟨%e0, H0⟩, ⟨%e1, H1⟩, ⟨%e2, H2⟩, ⟨%e3, H3⟩, ⟨%e4, H4⟩, ⟨%e5, H5⟩, H6⟩
        have hf11' : ∀ idx : S10000x128.Idx, (idx 0).val < 400 * 24 → f11 idx = Hval m c idx := fun idx h => hf11 idx (by rw [h24]; exact h)
        iapply (runC c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) scH (Memref.isWhole_whole _) hc1 hc2 hc3 hc4 (iblk m c 0 t) (iblk m c 3 t) (iblk m c 4 t) (Y1 m c) d10 f11 Set.univ _)
        isplitl [H0]; · iexact H0
        isplitl [H3]; · iexact H3
        isplitl [H4]; · iexact H4
        isplitl [HS9]; · iexact HS9
        isplitl [HS10]; · iexact HS10
        isplitl [HS11]; · iexact HS11
        iintro ⟨H0, H3, H4, HS9, HS10, HS11⟩
        rw [Y2_at m c t h24 hc2 scH (Memref.isWhole_whole _) f11 hf11']
        isplitl [HS9 HS10 HS11 Hg]
        · isplitr [Hg]
          · isplitl [HS9]; · iexists _; iexact HS9
            isplitl [HS10]; · iexact HS10
            iexists _; iexact HS11
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · -- a middle point of layer 0
        have hc3 : ¬cond3 (grid0.coords t) := fun h => h24 ((hcond3 t).mp h)
        rw [PhiS_low m c t.val hz h25, PhiS_low m c (t.val + 1) (by omega) (by omega)]
        iintro ⟨⟨⟨HS9, HS10, ⟨%f11, %hf11, HS11⟩⟩, Hg⟩, Ho, ⟨%e0, H0⟩, ⟨%e1, H1⟩, ⟨%e2, H2⟩, ⟨%e3, H3⟩, ⟨%e4, H4⟩, ⟨%e5, H5⟩, H6⟩
        iapply (runB c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) scH (Memref.isWhole_whole _) hc1 hc2 hc3 hc4 (iblk m c 0 t) (iblk m c 3 t) (Y1 m c) f11 Set.univ _)
        isplitl [H0]; · iexact H0
        isplitl [H3]; · iexact H3
        isplitl [HS9]; · iexact HS9
        isplitl [HS11]; · iexact HS11
        iintro ⟨H0, H3, HS9, HS11⟩
        isplitl [HS9 HS10 HS11 Hg]
        · isplitr [Hg]
          · isplitl [HS9]; · iexact HS9
            isplitl [HS10]; · iexact HS10
            iexists _; isplitr
            swap; · iexact HS11
            ipureintro; intro idx hidx
            exact band_step m c t h25 hc2 scH _ f11 hf11 idx hidx
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
  · -- layer 1
    have h25' : 25 ≤ t.val := by omega
    have hc1 : ¬cond1 (grid0.coords t) := fun h => by have := (hcond1 t).mp h; omega
    have hc2 : ¬cond2 (grid0.coords t) := fun h => h25 ((hcond2 t).mp h)
    have hc3 : ¬cond3 (grid0.coords t) := fun h => by have := (hcond3 t).mp h; omega
    have hc4 : cond4 (grid0.coords t) := (hcond4 t).mpr h25'
    rw [lv6 m c t h25', PhiS_high m c t.val h25', PhiS_high m c (t.val + 1) (by omega)]
    iintro ⟨⟨⟨HS9, HS10, HS11⟩, Hg⟩, Ho, ⟨%e0, H0⟩, ⟨%e1, H1⟩, ⟨%e2, H2⟩, ⟨%e3, H3⟩, ⟨%e4, H4⟩, ⟨%e5, H5⟩, ⟨%d6, H6⟩⟩
    iapply (runD c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scB (Memref.isWhole_whole _) scH (Memref.isWhole_whole _) hc1 hc2 hc3 hc4 (iblk m c 0 t) (iblk m c 5 t) (Y2 m c) ((dats m 0 c).before 6 t d6) Set.univ _)
    isplitl [H0]; · iexact H0
    isplitl [H5]; · iexact H5
    isplitl [HS10]; · iexact HS10
    isplitl [H6]; · iexact H6
    iintro ⟨H0, H5, HS10, H6⟩
    isplitl [HS9 HS10 HS11 Hg]
    · isplitr [Hg]
      · isplitl [HS9]; · iexact HS9
        isplitl [HS10]; · iexact HS10
        iexact HS11
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero]
  try exact Idealize.SL.BI.Entails.refl _

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c cfg0.N from rfl, PhiS_high m c _ (by rw [N50]; decide), PhiA_eq]
  iintro ⟨⟨HS9, HS10, HS11⟩, Hg⟩
  isplitl [HS9 HS10 HS11]
  · isplitl [HS9]; · iexact HS9
    isplitl [HS10]; · iexists _; iexact HS10
    iexact HS11
  iexact Hg

set_option backward.isDefEq.respectTransparency.types false in
/-- THE FRAME RUN: every weakly fair execution of @main terminates, every array of the pipeline ends at what the library
    computes from the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: the program runs to the end and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KI.Final.lean ====
/-
  The output array after the run.

  The output window's block index is layer · band: block 0 through all of layer 0 (where the body stores nothing and
  nothing is written back), then block k at layer-1 point 25 + k, written back after every layer-1 point.  So the 25
  written blocks tile the [10000, 64] result, row r coming from point 25 + r / 400 at row r % 400 of its block.
-/
import proofs.«181885_g74002286510483_cont_9to1_m_578_17_alg».proof.Proof.KI.Sound
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole result: row r from the block of the layer-1 point of its band. -/
def Gout (c : Dev nD) : Vec F S10000x64 .f32 := fun i =>
  Oband m c (pt (25 + (i 0).val / 400) (by have := ValueIdx.idx2_lt0 i; omega))
    (ValueIdx.ix2 (n0 := 400) (n1 := 64) ⟨(i 0).val % 400, Nat.mod_lt _ (by decide)⟩ (i 1))

/-- The result at row 400·(t − 25) + y₀, column y₁ is point t's block at y. -/
theorem Gout_apply (c : Dev nD) (i : S10000x64.Idx) (t : Fin cfg0.N) (y : S400x64.Idx) (h25 : 25 ≤ t.val)
    (h0 : (i 0).val = (t.val - 25) * 400 + (y 0).val) (h1 : (i 1).val = (y 1).val) : Gout m c i = Oband m c t y := by
  have hy : (y 0).val < 400 := (y 0).isLt
  have ht : t.val < 50 := lt_of_lt_of_eq t.isLt N50
  unfold Gout
  have et : pt (25 + (i 0).val / 400) (by have := ValueIdx.idx2_lt0 i; omega) = t := Fin.ext (by show 25 + (i 0).val / 400 = t.val; omega)
  have ey : ValueIdx.ix2 (n0 := 400) (n1 := 64) ⟨(i 0).val % 400, Nat.mod_lt _ (by decide)⟩ (i 1) = y := by
    funext a
    match a with
    | ⟨0, _⟩ => exact Fin.ext (show (i 0).val % 400 = (y 0).val by omega)
    | ⟨1, _⟩ => exact Fin.ext h1
  rw [et, ey]

theorem flush6_ge : ∀ t : Fin cfg0.N, (cfg0.win 6).flush t = true → 25 ≤ t.val := by decide +kernel
theorem index6_0 : ∀ t : Fin cfg0.N, 25 ≤ t.val → win0_6.index t (0 : Fin 2) = t.val - 25 := by decide +kernel
theorem index6_1 : ∀ t : Fin cfg0.N, win0_6.index t (1 : Fin 2) = 0 := by decide +kernel

/-- What a layer-1 point writes back is its block of the result. -/
theorem flushed6_eq (c : Dev nD) (t : Fin cfg0.N) (hf : (cfg0.win 6).flush t = true) :
    (dats m 0 c).flushed 6 t = ((cfg0.win 6).blk t).view.read (Elt F) (Gout m c) := by
  have h25 := flush6_ge t hf
  show (cfg0.win 6).cut (grid0.coords t) ((dats m 0 c).after 6 t) = _
  rw [after6]
  funext y
  show Oband m c t y = Gout m c (((cfg0.win 6).blk t).view.emb y)
  refine (Gout_apply m c _ t y h25 ?_ ?_).symm
  · show win0_6.index t (0 : Fin 2) * 400 + 1 * (y 0).val = _
    rw [index6_0 t h25, Nat.one_mul]
  · show win0_6.index t (1 : Fin 2) * 64 + 1 * (y 1).val = _
    rw [index6_1 t, Nat.zero_mul, Nat.zero_add, Nat.one_mul]

/-- An index of the result is in point t's block iff each coordinate is in the block's range. -/
theorem mem_blk6 (t : Fin cfg0.N) (i : S10000x64.Idx) :
    i ∈ ((cfg0.win 6).blk t).view.set ↔ ∀ a : Fin 2, win0_6.index t a * S400x64.size a ≤ (i a).val ∧ (i a).val < win0_6.index t a * S400x64.size a + S400x64.size a := by
  show i ∈ ((View.whole main_v2).slice (win0_6.rect t)).set ↔ _
  rw [View.set_slice_whole, Rect.mem_set_unit]
  exact Iff.rfl

/-- Every row of the result lies in the block some layer-1 point writes back. -/
theorem cover6 (i : S10000x64.Idx) : ∃ t : Fin cfg0.N, (cfg0.win 6).flush t = true ∧ i ∈ ((cfg0.win 6).blk t).view.set := by
  have hi0 : (i 0).val < 10000 := ValueIdx.idx2_lt0 i
  have hi1 : (i 1).val < 64 := (i 1).isLt
  refine ⟨pt (25 + (i 0).val / 400) (by omega), flush6 _ (by show 25 ≤ 25 + (i 0).val / 400; omega), ?_⟩
  rw [mem_blk6]
  have h25 : 25 ≤ (pt (25 + (i 0).val / 400) (by omega)).val := by show 25 ≤ 25 + (i 0).val / 400; omega
  intro a
  match a with
  | ⟨0, _⟩ =>
    show win0_6.index _ (0 : Fin 2) * 400 ≤ (i 0).val ∧ (i 0).val < win0_6.index _ (0 : Fin 2) * 400 + 400
    rw [index6_0 _ h25]
    show (25 + (i 0).val / 400 - 25) * 400 ≤ (i 0).val ∧ (i 0).val < (25 + (i 0).val / 400 - 25) * 400 + 400
    omega
  | ⟨1, _⟩ =>
    show win0_6.index _ (1 : Fin 2) * 64 ≤ (i 1).val ∧ (i 1).val < win0_6.index _ (1 : Fin 2) * 64 + 64
    rw [index6_1]
    omega

/-- THE RESULT ARRAY after the run. -/
theorem final6 (c : Dev nD) : (dats m 0 c).arrAt 6 cfg0.N = Gout m c :=
  (dats m 0 c).arrAt_eq_of_cover 6 (Gout m c) (fun t hf => flushed6_eq m c t hf) (cover6)

/-- The frame run re-posted: the result at `Gout`, the arguments unchanged. -/
theorem run_value : θ_run defs (onTc (τ := τ) (main (F := F))) ⟨m, fun _ => 0, ρ⟩ (fun r => ∀ c : Dev nD,
      r.2.mem ((c.tc : Thread nD τ).loc main_v2) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final6 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.Body

end
-- ==== Proof.Spec.lean ====
/-
  The two-layer graph convolution as one function of its six argument arrays, index by index, on the extended reals:

    y1 = x · W1,   h = max(adj[0] · y1 + b1, 0),   y2 = h · W2,   out = adj[1] · y2 + b2,

  each matrix product a plain sum over the contracted axis.  Both programs compute exactly these four stages, in this
  order and with these groupings, so no law of the extended reals beyond reading each operation at an index is needed.
-/
import Idealize.ShloMosaic.PureOps.Ideal
import Idealize.ShloMosaic.Lib.ValueIdx

noncomputable section

namespace GcnSpec

open Idealize.ShloMosaic Idealize.ShloMosaic.ValueIdx

abbrev T1 (a : ℕ) : Shape := ⟨1, ![a]⟩
abbrev T2 (a b : ℕ) : Shape := ⟨2, ![a, b]⟩
abbrev T3 (a b c : ℕ) : Shape := ⟨3, ![a, b, c]⟩

/-- The row and the column of a rank-2 index, as numbers below the literal extents. -/
abbrev row {a b : ℕ} (i : (T2 a b).Idx) : Fin a := ⟨(i 0).val, (i 0).isLt⟩
abbrev col {a b : ℕ} (i : (T2 a b).Idx) : Fin b := ⟨(i 1).val, (i 1).isLt⟩

/-- The float zero of the rectifier: the word 0x00000000 read as an extended real. -/
abbrev zero : EReal := (FloatOps.ofBits (F := Ideal) .f32 0x00000000#32 : Ideal .f32)

variable (X : (T2 10000 128).Idx → EReal) (A : (T3 2 10000 10000).Idx → EReal) (W1 : (T2 128 128).Idx → EReal)
  (B1 : (T1 128).Idx → EReal) (W2 : (T2 128 64).Idx → EReal) (B2 : (T1 64).Idx → EReal)

/-- x · W1. -/
def y1 : (T2 10000 128).Idx → EReal := fun i => ∑ q : Fin 128, X (ix2 (row i) q) * W1 (ix2 q (col i))

/-- max(adj[0] · y1 + b1, 0). -/
def hh : (T2 10000 128).Idx → EReal := fun i =>
  max ((∑ p : Fin 10000, A (ix3 (0 : Fin 2) (row i) p) * y1 X W1 (ix2 p (col i))) + B1 (ix1 (col i))) zero

/-- h · W2. -/
def y2 : (T2 10000 64).Idx → EReal := fun i => ∑ l : Fin 128, hh X A W1 B1 (ix2 (row i) l) * W2 (ix2 l (col i))

/-- adj[1] · y2 + b2. -/
def out : (T2 10000 64).Idx → EReal := fun i =>
  (∑ k : Fin 10000, A (ix3 (1 : Fin 2) (row i) k) * y2 X A W1 B1 W2 (ix2 k (col i))) + B2 (ix1 (col i))

end GcnSpec

end
-- ==== Proof.KI.Payloads.lean ====
/-
  The kernel's four payloads read at an index, on the extended reals.

  Each of the kernel's matrix products into a zero accumulator is the plain sum over the contracted axis; the change
  to the scratch's 16-bit format is the identity; the adjacency block [1, 400, 10000] recast to [400, 10000] reads the
  block at (0, r, k); the bias row [1, n] broadcast down 400 rows reads it at (0, c); the rectifier is the maximum with
  the zero word.
-/
import proofs.«181885_g74002286510483_cont_9to1_m_578_17_alg».proof.Proof.Gen.KernelIdeal.Skeleton
import proofs.«181885_g74002286510483_cont_9to1_m_578_17_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx GcnSpec

theorem mmXW_lhs0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem mmXW_lhs1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem mmXW_rhs0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem mmXW_rhs1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
/-- The product into a zero accumulator, at (r, c): the sum over k of lhs (r, k) · rhs (k, c). -/
theorem mmXW_apply {φ₁ φ₂ : FTy} (lhs : FVec Ideal S10000x128 φ₁) (rhs : FVec Ideal S128x128 φ₂) (i : S10000x128.Idx) :
    FloatOps.matmul dot_S10000x128_S128x128_S10000x128_1_0_0_1_n_n none lhs rhs (constant S10000x128 .f32 0x00000000#32) i
      = ∑ k : Fin 128, lhs (ix2 (n0 := 10000) (n1 := 128) (row i) k) * rhs (ix2 (n0 := 128) (n1 := 128) k (col i)) := by
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = ix2 (n0 := 10000) (n1 := 128) (row i) k := funext fun a => Fin.ext (by
    match a with
    | ⟨0, _⟩ => exact mmXW_lhs0 _ _
    | ⟨1, _⟩ => exact (mmXW_lhs1 _ _).trans hk)
  have er : dot_S10000x128_S128x128_S10000x128_1_0_0_1_n_n.rhsIdx i ((ValueIdx.contrEquiv1 dot_S10000x128_S128x128_S10000x128_1_0_0_1_n_n 128 rfl rfl).symm k) = ix2 (n0 := 128) (n1 := 128) k (col i) := funext fun a => Fin.ext (by
    match a with
    | ⟨0, _⟩ => exact (mmXW_rhs0 _ _).trans hk
    | ⟨1, _⟩ => exact mmXW_rhs1 _ _)
  rw [el, er]

theorem mmAY_lhs0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem mmAY_lhs1 (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
theorem mmAY_rhs0 (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
theorem mmAY_rhs1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl
/-- The product into a zero accumulator, at (r, c): the sum over k of lhs (r, k) · rhs (k, c). -/
theorem mmAY_apply {φ₁ φ₂ : FTy} (lhs : FVec Ideal S400x10000 φ₁) (rhs : FVec Ideal S10000x128 φ₂) (i : S400x128.Idx) :
    FloatOps.matmul dot_S400x10000_S10000x128_S400x128_1_0_0_1_n_n none lhs rhs (constant S400x128 .f32 0x00000000#32) i
      = ∑ k : Fin 10000, lhs (ix2 (n0 := 400) (n1 := 10000) (row i) k) * rhs (ix2 (n0 := 10000) (n1 := 128) k (col i)) := by
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx i ((ValueIdx.contrEquiv1 dot_S400x10000_S10000x128_S400x128_1_0_0_1_n_n 10000 rfl rfl).symm k) = ix2 (n0 := 400) (n1 := 10000) (row i) k := funext fun a => Fin.ext (by
    match a with
    | ⟨0, _⟩ => exact mmAY_lhs0 _ _
    | ⟨1, _⟩ => exact (mmAY_lhs1 _ _).trans hk)
  have er : dot_S400x10000_S10000x128_S400x128_1_0_0_1_n_n.rhsIdx i ((ValueIdx.contrEquiv1 dot_S400x10000_S10000x128_S400x128_1_0_0_1_n_n 10000 rfl rfl).symm k) = ix2 (n0 := 10000) (n1 := 128) k (col i) := funext fun a => Fin.ext (by
    match a with
    | ⟨0, _⟩ => exact (mmAY_rhs0 _ _).trans hk
    | ⟨1, _⟩ => exact mmAY_rhs1 _ _)
  rw [el, er]

theorem mmHW_lhs0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem mmHW_lhs1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem mmHW_rhs0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem mmHW_rhs1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl
/-- The product into a zero accumulator, at (r, c): the sum over k of lhs (r, k) · rhs (k, c). -/
theorem mmHW_apply {φ₁ φ₂ : FTy} (lhs : FVec Ideal S10000x128 φ₁) (rhs : FVec Ideal S128x64 φ₂) (i : S10000x64.Idx) :
    FloatOps.matmul dot_S10000x128_S128x64_S10000x64_1_0_0_1_n_n none lhs rhs (constant S10000x64 .f32 0x00000000#32) i
      = ∑ k : Fin 128, lhs (ix2 (n0 := 10000) (n1 := 128) (row i) k) * rhs (ix2 (n0 := 128) (n1 := 64) k (col i)) := by
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx i ((ValueIdx.contrEquiv1 dot_S10000x128_S128x64_S10000x64_1_0_0_1_n_n 128 rfl rfl).symm k) = ix2 (n0 := 10000) (n1 := 128) (row i) k := funext fun a => Fin.ext (by
    match a with
    | ⟨0, _⟩ => exact mmHW_lhs0 _ _
    | ⟨1, _⟩ => exact (mmHW_lhs1 _ _).trans hk)
  have er : dot_S10000x128_S128x64_S10000x64_1_0_0_1_n_n.rhsIdx i ((ValueIdx.contrEquiv1 dot_S10000x128_S128x64_S10000x64_1_0_0_1_n_n 128 rfl rfl).symm k) = ix2 (n0 := 128) (n1 := 64) k (col i) := funext fun a => Fin.ext (by
    match a with
    | ⟨0, _⟩ => exact (mmHW_rhs0 _ _).trans hk
    | ⟨1, _⟩ => exact mmHW_rhs1 _ _)
  rw [el, er]

theorem mmAZ_lhs0 (i : S400x64.Idx) (q : dot_S400x10000_S10000x64_S400x64_1_0_0_1_n_n.contr.Idx) : (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem mmAZ_lhs1 (i : S400x64.Idx) (q : dot_S400x10000_S10000x64_S400x64_1_0_0_1_n_n.contr.Idx) : (dot_S400x10000_S10000x64_S400x64_1_0_0_1_n_n.lhsIdx i q 1).val = (q ⟨0, by decide⟩).val :=
  dot_S400x10000_S10000x64_S400x64_1_0_0_1_n_n.lhsIdx_val_of_single rfl i q
theorem mmAZ_rhs0 (i : S400x64.Idx) (q : dot_S400x10000_S10000x64_S400x64_1_0_0_1_n_n.contr.Idx) : (dot_S400x10000_S10000x64_S400x64_1_0_0_1_n_n.rhsIdx i q 0).val = (q ⟨0, by decide⟩).val :=
  dot_S400x10000_S10000x64_S400x64_1_0_0_1_n_n.rhsIdx_val_of_single rfl i q
theorem mmAZ_rhs1 (i : S400x64.Idx) (q : dot_S400x10000_S10000x64_S400x64_1_0_0_1_n_n.contr.Idx) : (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl
/-- The product into a zero accumulator, at (r, c): the sum over k of lhs (r, k) · rhs (k, c). -/
theorem mmAZ_apply {φ₁ φ₂ : FTy} (lhs : FVec Ideal S400x10000 φ₁) (rhs : FVec Ideal S10000x64 φ₂) (i : S400x64.Idx) :
    FloatOps.matmul dot_S400x10000_S10000x64_S400x64_1_0_0_1_n_n none lhs rhs (constant S400x64 .f32 0x00000000#32) i
      = ∑ k : Fin 10000, lhs (ix2 (n0 := 400) (n1 := 10000) (row i) k) * rhs (ix2 (n0 := 10000) (n1 := 64) k (col i)) := by
  rw [Ideal.matmul_constant_zero_apply, ← Equiv.sum_comp (ValueIdx.contrEquiv1 dot_S400x10000_S10000x64_S400x64_1_0_0_1_n_n 10000 rfl rfl).symm]
  refine Finset.sum_congr rfl fun k _ => ?_
  have hk := ValueIdx.contrEquiv1_symm_val dot_S400x10000_S10000x64_S400x64_1_0_0_1_n_n 10000 rfl rfl k
  have el : dot_S400x10000_S10000x64_S400x64_1_0_0_1_n_n.lhsIdx i ((ValueIdx.contrEquiv1 dot_S400x10000_S10000x64_S400x64_1_0_0_1_n_n 10000 rfl rfl).symm k) = ix2 (n0 := 400) (n1 := 10000) (row i) k := funext fun a => Fin.ext (by
    match a with
    | ⟨0, _⟩ => exact mmAZ_lhs0 _ _
    | ⟨1, _⟩ => exact (mmAZ_lhs1 _ _).trans hk)
  have er : dot_S400x10000_S10000x64_S400x64_1_0_0_1_n_n.rhsIdx i ((ValueIdx.contrEquiv1 dot_S400x10000_S10000x64_S400x64_1_0_0_1_n_n 10000 rfl rfl).symm k) = ix2 (n0 := 10000) (n1 := 64) k (col i) := funext fun a => Fin.ext (by
    match a with
    | ⟨0, _⟩ => exact (mmAZ_rhs0 _ _).trans hk
    | ⟨1, _⟩ => exact mmAZ_rhs1 _ _)
  rw [el, er]

/-- The adjacency block recast from [1, 400, 10000] to [400, 10000], at (r, k): the block at (0, r, k). -/
theorem castAdj_apply (x : Vec Ideal S1x400x10000 .f32) (r : Fin 400) (k : Fin 10000) :
    shapeCast S400x10000 x shapeCasts_S1x400x10000_S400x10000 (ix2 (n0 := 400) (n1 := 10000) r k) = x (ix3 (n0 := 1) (n1 := 400) (n2 := 10000) 0 r k) :=
  shapeCast_apply x shapeCasts_S1x400x10000_S400x10000 _ _ (by
    rewrite [Shape.rowMajor_val_three, Shape.rowMajor_val_two]
    show (0 * 400 + r.val) * 10000 + k.val = r.val * 10000 + k.val
    omega)

/-- The bias row [1, 128] broadcast to [400, 128], at (r, c): the row at (0, c). -/
theorem bcast128_apply (b : Vec Ideal S1x128 .f32) (i : S400x128.Idx) :
    broadcastTo S400x128 (shapeCast S1x128 b shapeCasts_S1x128_S1x128) broadcasts_S1x128_S400x128 i = b (ix2 (n0 := 1) (n1 := 128) 0 (col i)) := by
  rw [shapeCast_self]
  exact broadcastTo_apply b broadcasts_S1x128_S400x128 i _ (fun a => match a with
    | ⟨0, _⟩ => by show 0 = if (1 : Nat) = 1 then 0 else _; rw [if_pos rfl]
    | ⟨1, _⟩ => by show (i 1).val = if (128 : Nat) = 1 then 0 else (i 1).val; rw [if_neg (by decide)])

/-- The bias row [1, 64] broadcast to [400, 64] likewise. -/
theorem bcast64_apply (b : Vec Ideal S1x64 .f32) (i : S400x64.Idx) :
    broadcastTo S400x64 (shapeCast S1x64 b shapeCasts_S1x64_S1x64) broadcasts_S1x64_S400x64 i = b (ix2 (n0 := 1) (n1 := 64) 0 (col i)) := by
  rw [shapeCast_self]
  exact broadcastTo_apply b broadcasts_S1x64_S400x64 i _ (fun a => match a with
    | ⟨0, _⟩ => by show 0 = if (1 : Nat) = 1 then 0 else _; rw [if_pos rfl]
    | ⟨1, _⟩ => by show (i 1).val = if (64 : Nat) = 1 then 0 else (i 1).val; rw [if_neg (by decide)])

/-- x · W1 as the first point stores it, at (p, l). -/
theorem pay1_apply (x : Vec Ideal S10000x128 .f32) (w : Vec Ideal S128x128 .f32) (i : S10000x128.Idx) :
    k0_pay1 (F := Ideal) x w i = ∑ q : Fin 128, x (ix2 (n0 := 10000) (n1 := 128) (row i) q) * w (ix2 (n0 := 128) (n1 := 128) q (col i)) := by
  unfold k0_pay1
  try dsimp only
  rw [shapeCast_self]
  exact mmXW_apply (φ₁ := .f32) (φ₂ := .f32) x w i

/-- One band of max(adj0 · y1 + b1, 0), at (r, l). -/
theorem pay2_apply (x : Vec Ideal S1x400x10000 .f32) (y : Vec Ideal S10000x128 .bf16) (b : Vec Ideal S1x128 .f32) (i : S400x128.Idx) :
    k0_pay2 (F := Ideal) x y b i
      = max ((∑ p : Fin 10000, x (ix3 (n0 := 1) (n1 := 400) (n2 := 10000) 0 (row i) p) * y (ix2 (n0 := 10000) (n1 := 128) p (col i))) + b (ix2 (n0 := 1) (n1 := 128) 0 (col i))) zero := by
  unfold k0_pay2
  try dsimp only
  rw [shapeCast_self]
  show max (FloatOps.matmul (F := Ideal) (φ₁ := .f32) (φ₂ := .bf16) dot_S400x10000_S10000x128_S400x128_1_0_0_1_n_n none (shapeCast S400x10000 x shapeCasts_S1x400x10000_S400x10000) y (constant (F := Ideal) S400x128 .f32 0x00000000#32) i
      + broadcastTo S400x128 (shapeCast S1x128 b shapeCasts_S1x128_S1x128) broadcasts_S1x128_S400x128 i) zero = _
  rw [mmAY_apply, bcast128_apply]
  exact congrArg₂ max (congrArg₂ (· + ·) (Finset.sum_congr rfl fun k _ => congrArg₂ (· * ·) (castAdj_apply x (row i) k) rfl) rfl) rfl

/-- h · W2 as the last layer-0 point stores it, at (k, j). -/
theorem pay3_apply (h : Vec Ideal S10000x128 .f32) (w : Vec Ideal S128x64 .f32) (i : S10000x64.Idx) :
    k0_pay3 (F := Ideal) h w i = ∑ l : Fin 128, h (ix2 (n0 := 10000) (n1 := 128) (row i) l) * w (ix2 (n0 := 128) (n1 := 64) l (col i)) := by
  unfold k0_pay3
  try dsimp only
  rw [shapeCast_self]
  exact mmHW_apply (φ₁ := .f32) (φ₂ := .f32) h w i

/-- One band of adj1 · y2 + b2, at (r, j). -/
theorem pay4_apply (x : Vec Ideal S1x400x10000 .f32) (y : Vec Ideal S10000x64 .bf16) (b : Vec Ideal S1x64 .f32) (i : S400x64.Idx) :
    k0_pay4 (F := Ideal) x y b i
      = (∑ k : Fin 10000, x (ix3 (n0 := 1) (n1 := 400) (n2 := 10000) 0 (row i) k) * y (ix2 (n0 := 10000) (n1 := 64) k (col i))) + b (ix2 (n0 := 1) (n1 := 64) 0 (col i)) := by
  unfold k0_pay4
  try dsimp only
  show FloatOps.matmul (F := Ideal) (φ₁ := .f32) (φ₂ := .bf16) dot_S400x10000_S10000x64_S400x64_1_0_0_1_n_n none (shapeCast S400x10000 x shapeCasts_S1x400x10000_S400x10000) y (constant (F := Ideal) S400x64 .f32 0x00000000#32) i
      + broadcastTo S400x64 (shapeCast S1x64 b shapeCasts_S1x64_S1x64) broadcasts_S1x64_S400x64 i = _
  rw [mmAZ_apply, bcast64_apply]
  exact congrArg₂ (· + ·) (Finset.sum_congr rfl fun k _ => congrArg₂ (· * ·) (castAdj_apply x (row i) k) rfl) rfl

end Cert.KernelIdeal.Body

end
-- ==== Proof.KI.KernelSpec.lean ====
/-
  The kernel's result is the specification.

  Each window's block at a point is read off the argument arrays: the adjacency block at point t = 25·layer + band is
  adj[layer, 400·band .. 400·band + 399, :]; x, W1, W2 are whole; the two bias rows are the [128] and [64] vectors recast to
  one row by the host before the region.  With the payloads read at an index, Y1, H, Y2 and the result are the four
  stages of the specification.
-/
import proofs.«181885_g74002286510483_cont_9to1_m_578_17_alg».proof.Proof.KI.Final
import proofs.«181885_g74002286510483_cont_9to1_m_578_17_alg».proof.Proof.KI.Payloads
import Idealize.ShloMosaic.Lib.StableHlo.Run

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem GcnSpec

variable (m : (ℓ : Loc nD τ sig) → Buf (Elt Ideal) ℓ)

/-- The printed index maps over the grid: the adjacency's block index is (layer, band, 0); every other input's is zero. -/
theorem idxW : ∀ t : Fin cfg0.N,
    win0_0.index t (0 : Fin 3) = t.val / 25 ∧ win0_0.index t (1 : Fin 3) = t.val % 25 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The bias row b1 as the region finds it: the [128] argument recast to [1, 128]. -/
theorem V_v0 (c : Dev nD) : (V m c main_v0 : S1x128.Idx → EReal) = shapeCast S1x128 (m ((c.tc : Thread nD τ).loc main_arg3)) shapeCasts_S128_S1x128 := by
  dsimp only [Gen.V, Gen.hostOps0]; after_results; rfl

/-- The bias row b2 likewise. -/
theorem V_v1 (c : Dev nD) : (V m c main_v1 : S1x64.Idx → EReal) = shapeCast S1x64 (m ((c.tc : Thread nD τ).loc main_arg5)) shapeCasts_S64_S1x64 := by
  dsimp only [Gen.V, Gen.hostOps0]; after_results; rfl

/-- The adjacency block at point t, at (0, r, k): adj[t / 25, 400·(t % 25) + r, k]. -/
theorem iblk0_apply (c : Dev nD) (t : Fin cfg0.N) (r : Fin 400) (k : Fin 10000) :
    (iblk m c 0 t : Vec Ideal S1x400x10000 .f32) (ix3 (n0 := 1) (n1 := 400) (n2 := 10000) 0 r k)
      = m ((c.tc : Thread nD τ).loc main_arg1) (ix3 (n0 := 2) (n1 := 10000) (n2 := 10000)
          ⟨t.val / 25, by have := lt_of_lt_of_eq t.isLt N50; omega⟩ ⟨400 * (t.val % 25) + r.val, by have := r.isLt; omega⟩ k) := by
  obtain ⟨e0, e1, e2, -⟩ := idxW t
  show V m c main_arg1 (((cfg0.win 0).blk t).view.emb (ix3 (n0 := 1) (n1 := 400) (n2 := 10000) 0 r k)) = _
  rw [V_main_arg1]
  refine congrArg _ ?_
  funext a; apply Fin.ext
  match a with
  | ⟨0, _⟩ => show win0_0.index t (0 : Fin 3) * 1 + 1 * 0 = t.val / 25; omega
  | ⟨1, _⟩ => show win0_0.index t (1 : Fin 3) * 400 + 1 * r.val = 400 * (t.val % 25) + r.val; omega
  | ⟨2, _⟩ => show win0_0.index t (2 : Fin 3) * 10000 + 1 * k.val = k.val; omega

/-- x, whole, at any point. -/
theorem iblk1_apply (c : Dev nD) (t : Fin cfg0.N) (y : S10000x128.Idx) :
    (iblk m c 1 t : Vec Ideal S10000x128 .f32) y = m ((c.tc : Thread nD τ).loc main_arg0) y := by
  obtain ⟨-, -, -, e0, e1, -⟩ := idxW t
  show V m c main_arg0 (((cfg0.win 1).blk t).view.emb y) = _
  rw [V_main_arg0]
  refine congrArg _ ?_
  funext a; apply Fin.ext
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- W1, whole. -/
theorem iblk2_apply (c : Dev nD) (t : Fin cfg0.N) (y : S128x128.Idx) :
    (iblk m c 2 t : Vec Ideal S128x128 .f32) y = m ((c.tc : Thread nD τ).loc main_arg2) y := by
  obtain ⟨-, -, -, -, -, e0, e1, -⟩ := idxW t
  show V m c main_arg2 (((cfg0.win 2).blk t).view.emb y) = _
  rw [V_main_arg2]
  refine congrArg _ ?_
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias row b1 at (0, l): b1[l]. -/
theorem iblk3_apply (c : Dev nD) (t : Fin cfg0.N) (l : Fin 128) :
    (iblk m c 3 t : Vec Ideal S1x128 .f32) (ix2 (n0 := 1) (n1 := 128) 0 l) = m ((c.tc : Thread nD τ).loc main_arg3) (ix1 (n := 128) l) := by
  obtain ⟨-, -, -, -, -, -, -, e0, e1, -⟩ := idxW t
  show V m c main_v0 (((cfg0.win 3).blk t).view.emb (ix2 (n0 := 1) (n1 := 128) 0 l)) = _
  rw [V_v0]
  refine shapeCast_apply _ shapeCasts_S128_S1x128 _ _ ?_
  rewrite [Shape.rowMajor_val_one, Shape.rowMajor_val_two]
  show l.val = (win0_3.index t (0 : Fin 2) * 1 + 1 * 0) * 128 + (win0_3.index t (1 : Fin 2) * 128 + 1 * l.val)
  omega

/-- W2, whole. -/
theorem iblk4_apply (c : Dev nD) (t : Fin cfg0.N) (y : S128x64.Idx) :
    (iblk m c 4 t : Vec Ideal S128x64 .f32) y = m ((c.tc : Thread nD τ).loc main_arg4) y := by
  obtain ⟨-, -, -, -, -, -, -, -, -, e0, e1, -⟩ := idxW t
  show V m c main_arg4 (((cfg0.win 4).blk t).view.emb y) = _
  rw [V_main_arg4]
  refine congrArg _ ?_
  funext a; apply Fin.ext
  match a with
  | ⟨0, _⟩ => show win0_4.index t (0 : Fin 2) * 128 + 1 * (y 0).val = (y 0).val; omega
  | ⟨1, _⟩ => show win0_4.index t (1 : Fin 2) * 64 + 1 * (y 1).val = (y 1).val; omega

/-- The bias row b2 at (0, j): b2[j]. -/
theorem iblk5_apply (c : Dev nD) (t : Fin cfg0.N) (j : Fin 64) :
    (iblk m c 5 t : Vec Ideal S1x64 .f32) (ix2 (n0 := 1) (n1 := 64) 0 j) = m ((c.tc : Thread nD τ).loc main_arg5) (ix1 (n := 64) j) := by
  obtain ⟨-, -, -, -, -, -, -, -, -, -, -, e0, e1⟩ := idxW t
  show V m c main_v1 (((cfg0.win 5).blk t).view.emb (ix2 (n0 := 1) (n1 := 64) 0 j)) = _
  rw [V_v1]
  refine shapeCast_apply _ shapeCasts_S64_S1x64 _ _ ?_
  rewrite [Shape.rowMajor_val_one, Shape.rowMajor_val_two]
  show j.val = (win0_5.index t (0 : Fin 2) * 1 + 1 * 0) * 64 + (win0_5.index t (1 : Fin 2) * 64 + 1 * j.val)
  omega

/-! ## The four stages -/

/-- Y1 is x · W1. -/
theorem Y1_spec (c : Dev nD) : Y1 m c = y1 (m ((c.tc : Thread nD τ).loc main_arg0)) (m ((c.tc : Thread nD τ).loc main_arg2)) := by
  funext i
  unfold Y1 GcnSpec.y1
  rw [pay1_apply]
  exact Finset.sum_congr rfl fun q _ => congrArg₂ (· * ·) (iblk1_apply m c tA _) (iblk2_apply m c tA _)

/-- H is max(adj[0] · y1 + b1, 0). -/
theorem Hval_spec (c : Dev nD) : Hval m c = hh (m ((c.tc : Thread nD τ).loc main_arg0)) (m ((c.tc : Thread nD τ).loc main_arg1))
    (m ((c.tc : Thread nD τ).loc main_arg2)) (m ((c.tc : Thread nD τ).loc main_arg3)) := by
  funext i
  have hi : (i 0).val < 10000 := ValueIdx.idx2_lt0 i
  unfold Hval Hband GcnSpec.hh
  rw [pay2_apply, Y1_spec]
  refine congrArg₂ max (congrArg₂ (· + ·) (Finset.sum_congr rfl fun p _ => congrArg₂ (· * ·) ?_ (congrArg _ ?_)) ?_) rfl
  · rw [iblk0_apply]
    refine congrArg _ ?_
    funext a; apply Fin.ext
    match a with
    | ⟨0, _⟩ => show (i 0).val / 400 / 25 = 0; omega
    | ⟨1, _⟩ => show 400 * ((i 0).val / 400 % 25) + (i 0).val % 400 = (i 0).val; omega
    | ⟨2, _⟩ => rfl
  · funext a; match a with | ⟨0, _⟩ => rfl | ⟨1, _⟩ => rfl
  · exact iblk3_apply m c _ _

/-- Y2 is h · W2. -/
theorem Y2_spec (c : Dev nD) : Y2 m c = y2 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  funext i
  unfold Y2 GcnSpec.y2
  rw [pay3_apply, Hval_spec]
  exact Finset.sum_congr rfl fun l _ => congrArg₂ (· * ·) rfl (iblk4_apply m c tC _)

/-- THE KERNEL'S RESULT IS THE SPECIFICATION. -/
theorem Gout_spec (c : Dev nD) : Gout m c = out (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) := by
  funext i
  have hi : (i 0).val < 10000 := ValueIdx.idx2_lt0 i
  unfold Gout Oband GcnSpec.out
  rw [pay4_apply, Y2_spec]
  refine congrArg₂ (· + ·) (Finset.sum_congr rfl fun k _ => congrArg₂ (· * ·) ?_ (congrArg _ ?_)) ?_
  · rw [iblk0_apply]
    refine congrArg _ ?_
    funext a; apply Fin.ext
    match a with
    | ⟨0, _⟩ => show (25 + (i 0).val / 400) / 25 = 1; omega
    | ⟨1, _⟩ => show 400 * ((25 + (i 0).val / 400) % 25) + (i 0).val % 400 = (i 0).val; omega
    | ⟨2, _⟩ => rfl
  · funext a; match a with | ⟨0, _⟩ => rfl | ⟨1, _⟩ => rfl
  · exact iblk5_apply m c _ _

end Cert.KernelIdeal.Body

end
-- ==== Proof.RefSpec.lean ====
/-
  The reference, stage by stage, is the specification: its four dot_generals are the four sums, its two slices and
  reshapes of the adjacency read adj[0] and adj[1] at (row, k), its broadcasts read b1 and b2 at the column, and its
  rectifier is the maximum with the zero constant.
-/
import proofs.«181885_g74002286510483_cont_9to1_m_578_17_alg».proof.Proof.Gen.ReferenceIdeal.Read
import proofs.«181885_g74002286510483_cont_9to1_m_578_17_alg».proof.Proof.Spec

noncomputable section

namespace Cert.ReferenceIdeal.RefSpec

open Cert.ReferenceIdeal Cert.ReferenceIdeal.Read Idealize.ShloMosaic Idealize.ShloMosaic.ValueIdx GcnSpec

variable (x0 : (⟨S10000x128, .f32⟩ : BufTy).Contents (Elt Ideal)) (x1 : (⟨S2x10000x10000, .f32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- x · W1. -/
theorem v2_eq : val_main_v2 (F := Ideal) x0 x2 = y1 x0 x2 := by
  funext i
  rw [val_main_v2_apply]
  unfold y1
  refine Finset.sum_congr rfl fun k _ => congrArg₂ (· * ·) (congrArg x0 ?_) (congrArg x2 ?_)
  · funext a; match a with | ⟨0, _⟩ => rfl | ⟨1, _⟩ => rfl
  · funext a; match a with | ⟨0, _⟩ => rfl | ⟨1, _⟩ => rfl

/-- The first slice of the adjacency, reshaped, at (r, k) is adj[0, r, k]. -/
theorem v1_at (r k : Fin 10000) : val_main_v1 (F := Ideal) x1 (ix2 r k) = x1 (ix3 (0 : Fin 2) r k) := by
  rw [val_main_v1_apply, val_main_v0_apply]
  refine congrArg x1 ?_
  have hr := r.isLt; have hk := k.isLt
  funext a
  match a with
  | ⟨0, _⟩ => rfl
  | ⟨1, _⟩ => exact Fin.ext (by show (r.val * 10000 + k.val) / 10000 % 10000 = r.val; omega)
  | ⟨2, _⟩ => exact Fin.ext (by show (r.val * 10000 + k.val) % 10000 = k.val; omega)

/-- The second slice likewise is adj[1, r, k]. -/
theorem v9_at (r k : Fin 10000) : val_main_v9 (F := Ideal) x1 (ix2 r k) = x1 (ix3 (1 : Fin 2) r k) := by
  rw [val_main_v9_apply, val_main_v8_apply]
  refine congrArg x1 ?_
  have hr := r.isLt; have hk := k.isLt
  funext a
  match a with
  | ⟨0, _⟩ => rfl
  | ⟨1, _⟩ => exact Fin.ext (by show (r.val * 10000 + k.val) / 10000 % 10000 = r.val; omega)
  | ⟨2, _⟩ => exact Fin.ext (by show (r.val * 10000 + k.val) % 10000 = k.val; omega)

/-- max(adj[0] · y1 + b1, 0). -/
theorem v7_eq : val_main_v7 (F := Ideal) x0 x1 x2 x3 = hh x0 x1 x2 x3 := by
  funext i
  rw [val_main_v7_apply, val_main_v6_apply, val_main_v3_apply, val_main_v5_apply, val_main_v4_apply, val_main_call0_v0_apply,
    val_main_call0_cst_apply, v2_eq]
  unfold hh
  show max ((∑ k : Fin 10000, val_main_v1 (F := Ideal) x1 (lidx_main_v3 i k) * y1 x0 x2 (ridx_main_v3 i k)) + x3 (idx_main_v4 (idx_main_v5 i))) zero = _
  refine congrArg₂ max (congrArg₂ (· + ·) (Finset.sum_congr rfl fun k _ => congrArg₂ (· * ·) ?_ (congrArg (y1 x0 x2) ?_)) (congrArg x3 ?_)) rfl
  · rw [← v1_at x1 (row i) k]
    refine congrArg (val_main_v1 (F := Ideal) x1) ?_
    funext a; match a with | ⟨0, _⟩ => rfl | ⟨1, _⟩ => rfl
  · funext a; match a with | ⟨0, _⟩ => rfl | ⟨1, _⟩ => rfl
  · funext a; match a with | ⟨0, _⟩ => rfl

/-- h · W2. -/
theorem v10_eq : val_main_v10 (F := Ideal) x0 x1 x2 x3 x4 = y2 x0 x1 x2 x3 x4 := by
  funext i
  rw [val_main_v10_apply, v7_eq]
  unfold y2
  refine Finset.sum_congr rfl fun k _ => congrArg₂ (· * ·) (congrArg (hh x0 x1 x2 x3) ?_) (congrArg x4 ?_)
  · funext a; match a with | ⟨0, _⟩ => rfl | ⟨1, _⟩ => rfl
  · funext a; match a with | ⟨0, _⟩ => rfl | ⟨1, _⟩ => rfl

/-- THE REFERENCE IS THE SPECIFICATION. -/
theorem v14_eq : val_main_v14 (F := Ideal) x0 x1 x2 x3 x4 x5 = out x0 x1 x2 x3 x4 x5 := by
  funext i
  rw [val_main_v14_apply, val_main_v11_apply, val_main_v13_apply, val_main_v12_apply, v10_eq]
  unfold out
  show (∑ k : Fin 10000, val_main_v9 (F := Ideal) x1 (lidx_main_v11 i k) * y2 x0 x1 x2 x3 x4 (ridx_main_v11 i k)) + x5 (idx_main_v12 (idx_main_v13 i)) = _
  refine congrArg₂ (· + ·) (Finset.sum_congr rfl fun k _ => congrArg₂ (· * ·) ?_ (congrArg (y2 x0 x1 x2 x3 x4) ?_)) (congrArg x5 ?_)
  · rw [← v9_at x1 (row i) k]
    refine congrArg (val_main_v9 (F := Ideal) x1) ?_
    funext a; match a with | ⟨0, _⟩ => rfl | ⟨1, _⟩ => rfl
  · funext a; match a with | ⟨0, _⟩ => rfl | ⟨1, _⟩ => rfl
  · funext a; match a with | ⟨0, _⟩ => rfl

end Cert.ReferenceIdeal.RefSpec

end
-- ==== Proof.lean ====
/-
  The fused two-layer graph convolution against its jnp reference.

  One kernel on a 2 × 25 grid (layer, row band) keeps three scratch arrays between grid points: Y1 = x·W1, written at the
  first point; H = max(adj[0]·Y1 + b1, 0), written one 400-row band per layer-0 point; Y2 = H·W2, written at the last
  layer-0 point; each layer-1 point then writes one band of adj[1]·Y2 + b2.  The frames (at the word level and on the
  extended reals) follow from a region invariant that tracks these scratch contents point by point; on the extended
  reals the result array is then the four-stage specification index by index, and so is the reference, whose four
  dot_generals are the same sums in the same grouping.  No finiteness of the inputs is used: every step is reading an
  operation at an index.
-/
import proofs.«181885_g74002286510483_cont_9to1_m_578_17_alg».proof.Defs
import proofs.«181885_g74002286510483_cont_9to1_m_578_17_alg».proof.Proof.Gen.Kernel
import proofs.«181885_g74002286510483_cont_9to1_m_578_17_alg».proof.Proof.Gen.KernelIdeal
import proofs.«181885_g74002286510483_cont_9to1_m_578_17_alg».proof.Proof.Gen.ReferenceIdeal
import proofs.«181885_g74002286510483_cont_9to1_m_578_17_alg».proof.Proof.Gen.ReferenceIdeal.Run
import proofs.«181885_g74002286510483_cont_9to1_m_578_17_alg».proof.Proof.Gen.ReferenceIdeal.Read
import proofs.«181885_g74002286510483_cont_9to1_m_578_17_alg».proof.Proof.Gen.Pre_finite_inputs
import proofs.«181885_g74002286510483_cont_9to1_m_578_17_alg».proof.Proof.K.Sound
import proofs.«181885_g74002286510483_cont_9to1_m_578_17_alg».proof.Proof.KI.KernelSpec
import proofs.«181885_g74002286510483_cont_9to1_m_578_17_alg».proof.Proof.RefSpec
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel := fun m ρ _ => Cert.Kernel.Body.frame (F := Bits) m ρ

/-- So does its reading on the extended reals. -/
theorem frame_ki : Cert.frame_KernelIdeal := fun m ρ _ => Cert.KernelIdeal.Body.frame (F := Ideal) m ρ

/-- The reference is straight-line host code: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end with the four-stage specification of arguments that agree. -/
theorem algebraic : Cert.algebraic_KernelIdeal_ReferenceIdeal := by
  intro m ρ m' ρ' _ hagree
  refine ⟨fun c => Cert.KernelIdeal.Body.Gout m c, Cert.KernelIdeal.Body.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefSpec.v14_eq]
  show _ = Cert.KernelIdeal.Body.Gout m c
  rw [Cert.KernelIdeal.Body.Gout_spec,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
